-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v26)) (v1 : (c : Dev Cert.KernelIdeal.nD) → Buf (Elt Ideal) ((c.tc : Thread Cert.KernelIdeal.nD Cert.KernelIdeal.τ).loc Cert.KernelIdeal.main_v41)) (v2 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_v41) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128x128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 81
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .f32⟩
  | .hbm, ⟨16, _⟩ => ⟨S1600000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S100000x1, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S_, .i32⟩
  | .hbm, ⟨64, _⟩ => ⟨S1600000, .i32⟩
  | .hbm, ⟨65, _⟩ => ⟨S1600000, .i1⟩
  | .hbm, ⟨66, _⟩ => ⟨S_, .i32⟩
  | .hbm, ⟨67, _⟩ => ⟨S1600000, .i32⟩
  | .hbm, ⟨68, _⟩ => ⟨S1600000, .i32⟩
  | .hbm, ⟨69, _⟩ => ⟨S1600000, .i32⟩
  | .hbm, ⟨70, _⟩ => ⟨S1600000x1, .i32⟩
  | .hbm, ⟨71, _⟩ => ⟨S1600000x128, .f32⟩
  | .hbm, ⟨72, _⟩ => ⟨S_, .f32⟩
  | .hbm, ⟨73, _⟩ => ⟨S100000x128, .f32⟩
  | .hbm, ⟨74, _⟩ => ⟨S1600000x1, .i32⟩
  | .hbm, ⟨75, _⟩ => ⟨S100000x128, .f32⟩
  | .hbm, ⟨76, _⟩ => ⟨S100000x1, .f32⟩
  | .hbm, ⟨77, _⟩ => ⟨S100000x128, .f32⟩
  | .hbm, ⟨78, _⟩ => ⟨S100000x128, .f32⟩
  | .hbm, ⟨79, _⟩ => ⟨S1x128, .f32⟩
  | .hbm, ⟨80, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S128x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_c : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_c_9 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v54) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 117
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S_, .f32⟩
  | .hbm, ⟨59, _⟩ => ⟨S100000x128, .f32⟩
  | .hbm, ⟨60, _⟩ => ⟨S1600000x1, .i32⟩
  | .hbm, ⟨61, _⟩ => ⟨S100000x128, .f32⟩
  | .hbm, ⟨62, _⟩ => ⟨S_, .f32⟩
  | .hbm, ⟨63, _⟩ => ⟨S1600000, .f32⟩
  | .hbm, ⟨64, _⟩ => ⟨S_, .f32⟩
  | .hbm, ⟨65, _⟩ => ⟨S100000, .f32⟩
  | .hbm, ⟨66, _⟩ => ⟨S1600000x1, .i32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x128, .f32⟩
  | .hbm, ⟨92, _⟩ => ⟨S_, .f32⟩
  | .hbm, ⟨93, _⟩ => ⟨S100000x128, .f32⟩
  | .hbm, ⟨94, _⟩ => ⟨S1600000x1, .i32⟩
  | .hbm, ⟨95, _⟩ => ⟨S100000x128, .f32⟩
  | .hbm, ⟨96, _⟩ => ⟨S_, .f32⟩
  | .hbm, ⟨97, _⟩ => ⟨S1600000, .f32⟩
  | .hbm, ⟨98, _⟩ => ⟨S_, .f32⟩
  | .hbm, ⟨99, _⟩ => ⟨S100000, .f32⟩
  | .hbm, ⟨100, _⟩ => ⟨S1600000x1, .i32⟩
  | .hbm, ⟨101, _⟩ => ⟨S100000, .f32⟩
  | .hbm, ⟨102, _⟩ => ⟨S_, .f32⟩
  | .hbm, ⟨103, _⟩ => ⟨S100000, .f32⟩
  | .hbm, ⟨104, _⟩ => ⟨S100000, .f32⟩
  | .hbm, ⟨105, _⟩ => ⟨S100000x1, .f32⟩
  | .hbm, ⟨106, _⟩ => ⟨S100000x128, .f32⟩
  | .hbm, ⟨107, _⟩ => ⟨S100000x128, .f32⟩
  | .hbm, ⟨108, _⟩ => ⟨S100000x128, .f32⟩
  | .hbm, ⟨109, _⟩ => ⟨S1x128, .f32⟩
  | .hbm, ⟨110, _⟩ => ⟨S100000x128, .f32⟩
  | .hbm, ⟨111, _⟩ => ⟨S100000x128, .f32⟩
  | .hbm, ⟨112, _⟩ => ⟨S100000x128, .f32⟩
  | .hbm, ⟨113, _⟩ => ⟨S100000x128, .f32⟩
  | .hbm, ⟨114, _⟩ => ⟨S_, .f32⟩
  | .hbm, ⟨115, _⟩ => ⟨S100000x128, .f32⟩
  | .hbm, ⟨116, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_call2_cst : Ref sig .tc := ⟨.hbm, 114, rfl⟩
abbrev main_call2_v0 : Ref sig .tc := ⟨.hbm, 115, rfl⟩
abbrev main_v81 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The run of the three-layer program with its three results named.

  @main is six segments: a stretch of host operations, the first layer's kernel, a second stretch, the second
  layer's kernel, a third stretch, the third layer's kernel. The buffer contents at the six boundaries are a fold
  from the launch memory (W0 … W6 of the frame module): a stretch applies its operations in order, a kernel region
  replaces its output array by what its write-backs leave and keeps every other buffer. The launch theorem for such a
  list of segments says every weakly fair execution terminates, nothing faulting, with every unscoped buffer at the
  last boundary's contents W6. Read at the three result buffers and at the eleven arguments this is the statement
  below; what W6 holds at the results is computed elsewhere.
-/
import proofs.«179849_j266287972767_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the three results at the last
    boundary's contents and the arguments as launched. -/
theorem run_results : θ_run defs (onTc (τ := τ) (main (F := F))) ⟨m, fun _ => 0, ρ⟩ (fun r => ∀ c : Dev nD,
      r.2.mem ((c.tc : Thread nD τ).loc main_v26) = W6 m ρ c (Proc.devRef .tc main_v26)
      ∧ r.2.mem ((c.tc : Thread nD τ).loc main_v41) = W6 m ρ c (Proc.devRef .tc main_v41)
      ∧ r.2.mem ((c.tc : Thread nD τ).loc main_v56) = W6 m ρ c (Proc.devRef .tc main_v56)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v26 (by decide)),
       h c _ (mem_uc main_v41 (by decide)),
       h c _ (mem_uc main_v56 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.Hand

end
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibMatProd.lean ====
/-
  Dense matrix products on the extended reals, as functions of whole arrays.

  `matProd A B` is the product of an m×k by a k×n array: entry (a, b) is the sum over c of A(a, c) · B(c, b). A plain
  product accumulated into zeros (the left operand's columns contracted with the right operand's rows, no batch axes)
  is this function; the host's dot_general with the same dimension numbers is the same sum with no accumulator, so it
  is this function too; and an entry of a product depends on one row of the left operand and one column of the right,
  so the product of a block of rows of A with B is those rows of `matProd A B`. Sums on the extended reals are taken
  in any order, so no finiteness is asked. Nothing here mentions a program.
-/
import Idealize.ShloMosaic.PureOps.Ideal.Laws
import Idealize.ShloMosaic.Lib.ValueIdx
import proofs.«179849_j266287972767_1_alg».proof.Proof.LibBlockReads

open scoped BigOperators

noncomputable section

namespace Cert.Lib.MatProd

open Idealize.ShloMosaic Idealize.ShloMosaic.ValueIdx

variable {m k n : Nat}

/-- The product of an m×k by a k×n array of extended reals. -/
def matProd (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_apply (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- A plain product into a zero accumulator is `matProd`: entry by entry it is the sum over the contracted
    coordinate. -/
theorem matmul_zero_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (A : FVec Ideal ⟨2, ![m, k]⟩ φ₁) (B : FVec Ideal ⟨2, ![k, n]⟩ φ₂) :
    matmul d prec A B (constant ⟨2, ![m, n]⟩ .f32 0x00000000#32) = matProd A B := by
  funext i
  obtain ⟨a, b, rfl⟩ : ∃ (a : Fin m) (b : Fin n), i = ix2 a b := ⟨i 0, i 1, eq_ix2 i⟩
  exact Cert.Lib.BlockReads.matmul_zero_rows_apply d hlc hrc hln hrn hlb hrb prec A B a b

/-- The host's dot_general is, on the extended reals, the product into a zero accumulator with the same dimension
    numbers: both are the sum over the contracted index of the products of the operands' entries. -/
theorem dotGeneral_eq_matmul_zero {sl sr so : Shape} {φ₁ φ₂ : FTy} (d : DotDims sl sr so)
    (prec prec' : Option ContractPrecision) (sched : HostSchedule) (A : FVec Ideal sl φ₁) (B : FVec Ideal sr φ₂) :
    FloatOps.dotGeneral d prec sched A B = matmul d prec' A B (constant so .f32 0x00000000#32) := by
  funext j
  show _ = FloatOps.matmul d prec' A B _ j
  rw [Ideal.dotGeneral_apply, Ideal.matmul_constant_zero_apply]

/-- So the host's plain dot_general is `matProd`, whatever the precision and the schedule. -/
theorem dotGeneral_eq_matProd {φ₁ φ₂ : FTy} (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (A : FVec Ideal ⟨2, ![m, k]⟩ φ₁) (B : FVec Ideal ⟨2, ![k, n]⟩ φ₂) :
    FloatOps.dotGeneral d prec sched A B = matProd A B :=
  (dotGeneral_eq_matmul_zero d prec none sched A B).trans (matmul_zero_eq_matProd d hlc hrc hln hrn hlb hrb none A B)

/-- An entry of a product depends on one row of the left operand and one column of the right: if row y of A' is row r
    of A and column b of B' is column b' of B, then `matProd A' B'` at (y, b) is `matProd A B` at (r, b'). So the
    product of a block of rows of A with B is the same rows of `matProd A B`. -/
theorem matProd_block {m' n' : Nat} (A : (⟨2, ![m, k]⟩ : Shape).Idx → EReal) (A' : (⟨2, ![m', k]⟩ : Shape).Idx → EReal)
    (B : (⟨2, ![k, n]⟩ : Shape).Idx → EReal) (B' : (⟨2, ![k, n']⟩ : Shape).Idx → EReal)
    (y : Fin m') (b : Fin n') (r : Fin m) (b' : Fin n)
    (hA : ∀ c : Fin k, A' (ix2 y c) = A (ix2 r c)) (hB : ∀ c : Fin k, B' (ix2 c b) = B (ix2 c b')) :
    matProd A' B' (ix2 y b) = matProd A B (ix2 r b') := by
  rw [matProd_apply, matProd_apply]
  exact Finset.sum_congr rfl fun c _ => by rw [hA c, hB c]

end Cert.Lib.MatProd

end
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibRowVector.lean ====
/-
  A vector of n entries as the single row of a 1×n array, and that row repeated down the r rows of an r×n array, read
  at an index: the re-shaping [n]→[1,n], the reference's broadcast of a vector along the columns of a 1×n array, its
  broadcast of a 1×n row into an r×n array, and its broadcast of a scalar into an array of any shape. Nothing here
  mentions a program.
-/
import Idealize.ShloMosaic.Lib.ValueIdx
import Idealize.ShloMosaic.Lib.Pipeline.Value
import Idealize.ShloMosaic.Lib.ValueLayout
import proofs.«179849_j266287972767_1_alg».proof.Proof.LibRowReductions

namespace Cert.Lib.RowVector

open Idealize.ShloMosaic Idealize.ShloMosaic.ValueIdx

variable {α : Type} {r n : Nat}

/-- A vector of n entries as the single row of a 1×n array: entry (0, q) is entry q. -/
def asRow (x : (⟨1, ![n]⟩ : Shape).Idx → α) : (⟨2, ![1, n]⟩ : Shape).Idx → α := fun i => x (ix1 (i 1))

theorem asRow_apply (x : (⟨1, ![n]⟩ : Shape).Idx → α) (q : Fin n) : asRow x (ix2 0 q) = x (ix1 q) := rfl

/-- Every index of a 1×n array is in row 0. -/
theorem idx_row (i : (⟨2, ![1, n]⟩ : Shape).Idx) : i = ix2 0 (i 1) := by
  funext d
  match d with
  | ⟨0, _⟩ =>
    have h : (i 0).val < 1 := (i 0).isLt
    exact Fin.ext (by show (i 0).val = 0; omega)
  | ⟨1, _⟩ => rfl

/-- The re-shaping [n]→[1,n] is `asRow`. -/
theorem shapeCast_eq_asRow (x : (⟨1, ![n]⟩ : Shape).Idx → α) (h : (⟨1, ![n]⟩ : Shape).ShapeCasts ⟨2, ![1, n]⟩) :
    shapeCast ⟨2, ![1, n]⟩ x h = asRow x := by
  funext i
  rw [idx_row i]
  exact Cert.Lib.RowReductions.shapeCast_rowvec_apply x h (i 1)

/-- The reference's broadcast of a vector along the columns of a 1×n array is `asRow`. -/
theorem bcastInDim_eq_asRow (x : (⟨1, ![n]⟩ : Shape).Idx → α)
    (h : (⟨1, ![n]⟩ : Shape).BroadcastsInDim ⟨2, ![1, n]⟩ ![1]) :
    broadcastInDim ⟨2, ![1, n]⟩ ![1] h x = asRow x := by
  funext i
  rw [idx_row i]
  refine broadcastInDim_apply _ h x _ _ fun ax => ?_
  match ax with
  | ⟨0, _⟩ =>
    show (i 1).val = if n = 1 then 0 else (i 1).val
    have h1 : (i 1).val < n := (i 1).isLt
    split_ifs with hn
    · omega
    · rfl

/-- A 1×n row broadcast into an r×n array, axis for axis, reads its entry q at every (p, q). -/
theorem bcastInDim_rows_apply (x : (⟨2, ![1, n]⟩ : Shape).Idx → α)
    (h : (⟨2, ![1, n]⟩ : Shape).BroadcastsInDim ⟨2, ![r, n]⟩ ![0, 1]) (p : Fin r) (q : Fin n) :
    broadcastInDim ⟨2, ![r, n]⟩ ![0, 1] h x (ix2 p q) = x (ix2 0 q) :=
  broadcastInDim_apply _ h x _ _ fun ax => by
    match ax with
    | ⟨0, _⟩ =>
      show (0 : Nat) = if (1 : Nat) = 1 then 0 else p.val
      rw [if_pos rfl]
    | ⟨1, _⟩ =>
      show q.val = if n = 1 then 0 else q.val
      split_ifs with hn
      · have := q.isLt; omega
      · rfl

/-- A scalar broadcast into an array of any shape reads the scalar at every index. -/
theorem bcastInDim_scalar_apply {s : Shape} (x : (⟨0, ![]⟩ : Shape).Idx → α)
    (h : (⟨0, ![]⟩ : Shape).BroadcastsInDim s ![]) (i : s.Idx) : broadcastInDim s ![] h x i = x ix0 :=
  broadcastInDim_apply _ h x _ _ fun ax => ax.elim0

end Cert.Lib.RowVector
-- ==== Proof.LibBiasRelu.lean ====
/-
  A bias row added to every row of a matrix and the result clamped below at zero, on the extended reals: the
  function itself, the kernel body's spelling of it (the row re-shaped in place, broadcast down the rows, added, and
  the maximum taken with a splat of the zero word), the reference's spelling (the bias vector broadcast into a 1×k row
  and then into the n×k array, added, and the maximum taken with a broadcast zero), and the fact that an entry depends
  on one entry of the matrix. The zero is kept as the value of the zero word, the same on both sides.
  Nothing here mentions a program.
-/
import Idealize.ShloMosaic.PureOps.Ideal.Laws
import Idealize.ShloMosaic.Lib.ValueIdx
import Idealize.ShloMosaic.Lib.Pipeline.Value
import proofs.«179849_j266287972767_1_alg».proof.Proof.LibBlockReads
import proofs.«179849_j266287972767_1_alg».proof.Proof.LibRowVector

noncomputable section

namespace Cert.Lib.BiasRelu

open Idealize.ShloMosaic Idealize.ShloMosaic.ValueIdx Cert.Lib.RowVector

variable {n n' k : Nat}

/-- Entry (p, q) is the maximum of X(p, q) + b(0, q) and zero. -/
def biasRelu (X : (⟨2, ![n, k]⟩ : Shape).Idx → EReal) (b : (⟨2, ![1, k]⟩ : Shape).Idx → EReal) :
    (⟨2, ![n, k]⟩ : Shape).Idx → EReal :=
  fun i => max (X i + b (ix2 (0 : Fin 1) (⟨(i 1).val, idx2_lt1 i⟩ : Fin k))) (Ideal.ofBits .f32 0x00000000#32)

theorem biasRelu_apply (X : (⟨2, ![n, k]⟩ : Shape).Idx → EReal) (b : (⟨2, ![1, k]⟩ : Shape).Idx → EReal)
    (p : Fin n) (q : Fin k) :
    biasRelu X b (ix2 p q) = max (X (ix2 p q) + b (ix2 0 q)) (Ideal.ofBits .f32 0x00000000#32) := rfl

/-- An entry depends on one entry of the matrix: equal entries give equal results. -/
theorem biasRelu_rows (X : (⟨2, ![n, k]⟩ : Shape).Idx → EReal) (X' : (⟨2, ![n', k]⟩ : Shape).Idx → EReal)
    (b : (⟨2, ![1, k]⟩ : Shape).Idx → EReal) (p' : Fin n') (p : Fin n) (q : Fin k)
    (h : X' (ix2 p' q) = X (ix2 p q)) : biasRelu X' b (ix2 p' q) = biasRelu X b (ix2 p q) := by
  rw [biasRelu_apply, biasRelu_apply, h]

/-- The kernel body's spelling. -/
theorem body_eq (x0 : FVec Ideal ⟨2, ![n, k]⟩ .f32) (x2 : FVec Ideal ⟨2, ![1, k]⟩ .f32)
    (h0 : (⟨2, ![n, k]⟩ : Shape).ShapeCasts ⟨2, ![n, k]⟩) (h2 : (⟨2, ![1, k]⟩ : Shape).ShapeCasts ⟨2, ![1, k]⟩)
    (hb : (⟨2, ![1, k]⟩ : Shape).Broadcasts ⟨2, ![n, k]⟩) :
    maximumf (addf (shapeCast ⟨2, ![n, k]⟩ x0 h0) (broadcastTo ⟨2, ![n, k]⟩ (shapeCast ⟨2, ![1, k]⟩ x2 h2) hb))
      (broadcast ⟨2, ![n, k]⟩ (Scalar.ofBits (F := Ideal) .f32 0x00000000#32)) = biasRelu x0 x2 := by
  funext i
  obtain ⟨p, q, rfl⟩ : ∃ (p : Fin n) (q : Fin k), i = ix2 p q := ⟨i 0, i 1, eq_ix2 i⟩
  rw [maximumf_apply, addf_apply, shapeCast_self, shapeCast_self, Cert.Lib.BlockReads.broadcast_row_apply]
  rfl

/-- The reference's spelling: the bias vector as a 1×k row. -/
theorem host_eq (X : FVec Ideal ⟨2, ![n, k]⟩ .f32) (b : FVec Ideal ⟨1, ![k]⟩ .f32)
    (h1 : (⟨1, ![k]⟩ : Shape).BroadcastsInDim ⟨2, ![1, k]⟩ ![1])
    (h2 : (⟨2, ![1, k]⟩ : Shape).BroadcastsInDim ⟨2, ![n, k]⟩ ![0, 1])
    (h3 : (⟨0, ![]⟩ : Shape).BroadcastsInDim ⟨2, ![n, k]⟩ ![]) :
    maximumf (addf X (broadcastInDim ⟨2, ![n, k]⟩ ![0, 1] h2 (broadcastInDim ⟨2, ![1, k]⟩ ![1] h1 b)))
      (broadcastInDim ⟨2, ![n, k]⟩ ![] h3 (constant (F := Ideal) ⟨0, ![]⟩ .f32 0x00000000#32)) = biasRelu X (asRow b) := by
  funext i
  obtain ⟨p, q, rfl⟩ : ∃ (p : Fin n) (q : Fin k), i = ix2 p q := ⟨i 0, i 1, eq_ix2 i⟩
  rw [maximumf_apply, addf_apply, bcastInDim_rows_apply, bcastInDim_eq_asRow, bcastInDim_scalar_apply]
  rfl

end Cert.Lib.BiasRelu

end
-- ==== Proof.LibSplitLayers.lean ====
/-
  Layers of a perceptron over the extended reals whose first matrix product is taken band by band.

  A layer is a product with a matrix, a bias row added to every row, and the maximum with zero. When the input is
  several arrays laid side by side and the matrix is cut into the matching bands of rows, the one product is the sum
  of the bands' products: a sum over the joined column index splits into the sums over each band's columns, and that
  uses only that addition of extended reals is associative and commutative. A band of a single column is the
  product of a column with a row. Every entry of a layer depends on one row of its inputs, so a block of rows of the
  result is the layer of that block of rows.
-/
import Idealize.ShloMosaic.PureOps.Ideal.Laws
import Idealize.ShloMosaic.Lib.ValueIdx
import Idealize.ShloMosaic.Lib.Pipeline.Value
import proofs.«179849_j266287972767_1_alg».proof.Proof.LibBlockReads
import proofs.«179849_j266287972767_1_alg».proof.Proof.LibMatProd
import proofs.«179849_j266287972767_1_alg».proof.Proof.LibRowVector
import proofs.«179849_j266287972767_1_alg».proof.Proof.LibBiasRelu

open scoped BigOperators

noncomputable section

namespace Cert.Lib.SplitLayers

open Idealize.ShloMosaic Idealize.ShloMosaic.ValueIdx Cert.Lib.MatProd Cert.Lib.BiasRelu Cert.Lib.RowVector

variable {r r' k k₁ k₂ k₃ n : Nat}

/-! ## One layer -/

/-- Entry (p, q) is max (∑ c, X(p, c) · W(c, q) + b(0, q)) 0. -/
def layer (X : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  biasRelu (matProd X W) b

/-- Row p' of the layer of X' is row p of the layer of X when row p' of X' is row p of X. -/
theorem layer_rows (X : (⟨2, ![r, k]⟩ : Shape).Idx → EReal) (X' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (h : ∀ c : Fin k, X' (ix2 p' c) = X (ix2 p c)) :
    layer X' W b (ix2 p' q) = layer X W b (ix2 p q) :=
  biasRelu_rows _ _ b p' p q (matProd_block X X' W W p' q p q h fun _ => rfl)

/-- The same for a layer without the maximum read through a final function applied entry by entry. -/
theorem matProd_rows (X : (⟨2, ![r, k]⟩ : Shape).Idx → EReal) (X' : (⟨2, ![r', k]⟩ : Shape).Idx → EReal)
    (W : (⟨2, ![k, n]⟩ : Shape).Idx → EReal) (p' : Fin r') (p : Fin r) (q : Fin n)
    (h : ∀ c : Fin k, X' (ix2 p' c) = X (ix2 p c)) : matProd X' W (ix2 p' q) = matProd X W (ix2 p q) :=
  matProd_block X X' W W p' q p q h fun _ => rfl

/-- A bias row broadcast down the rows and added, then the maximum with a splat of the zero word. -/
theorem relu_bias_eq (M : FVec Ideal ⟨2, ![r, n]⟩ .f32) (b : FVec Ideal ⟨2, ![1, n]⟩ .f32)
    (hb : (⟨2, ![1, n]⟩ : Shape).Broadcasts ⟨2, ![r, n]⟩) :
    maximumf (addf M (broadcastTo ⟨2, ![r, n]⟩ b hb))
      (broadcast ⟨2, ![r, n]⟩ (Scalar.ofBits (F := Ideal) .f32 0x00000000#32)) = biasRelu M b := by
  funext i
  obtain ⟨p, q, rfl⟩ : ∃ (p : Fin r) (q : Fin n), i = ix2 p q := ⟨i 0, i 1, eq_ix2 i⟩
  rw [maximumf_apply, addf_apply, Cert.Lib.BlockReads.broadcast_row_apply]
  rfl

/-- The reference's spelling of a layer: the host's product, the bias vector broadcast into a row and down the
    rows, the maximum with a broadcast zero. -/
theorem host_layer (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (X : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (Host.dotGeneral d none X W)
        (broadcastInDim ⟨2, ![r, n]⟩ ![0, 1] h2 (broadcastInDim ⟨2, ![1, n]⟩ ![1] h1 bv)))
      (broadcastInDim ⟨2, ![r, n]⟩ ![] h3 (constant (F := Ideal) ⟨0, ![]⟩ .f32 0x00000000#32))
    = layer X W (asRow bv) := by
  rw [Cert.Lib.BiasRelu.host_eq]
  unfold layer
  congr 1
  exact dotGeneral_eq_matProd d hlc hrc hln hrn hlb hrb none _ X W

/-! ## A column times a row -/

/-- A column broadcast along the rows times a row broadcast down the rows is the product of the r×1 by the 1×n
    array: the sum over the one contracted index. -/
theorem outer_eq (E : FVec Ideal ⟨2, ![r, 1]⟩ .f32) (w : FVec Ideal ⟨2, ![1, n]⟩ .f32)
    (he : (⟨2, ![r, 1]⟩ : Shape).Broadcasts ⟨2, ![r, n]⟩) (hw : (⟨2, ![1, n]⟩ : Shape).Broadcasts ⟨2, ![r, n]⟩) :
    mulf (broadcastTo ⟨2, ![r, n]⟩ E he) (broadcastTo ⟨2, ![r, n]⟩ w hw) = matProd E w := by
  funext i
  obtain ⟨p, q, rfl⟩ : ∃ (p : Fin r) (q : Fin n), i = ix2 p q := ⟨i 0, i 1, eq_ix2 i⟩
  rw [mulf_apply, Cert.Lib.BlockReads.broadcast_row_apply, matProd_apply, Fin.sum_univ_one]
  congr 1
  refine broadcastTo_apply E he (ix2 p q) (ix2 p 0) fun a => ?_
  match a with
  | ⟨0, _⟩ =>
    show p.val = if r = 1 then 0 else p.val
    split_ifs with hr
    · have := p.isLt; omega
    · rfl
  | ⟨1, _⟩ => rfl

/-! ## Two and three bands -/

/-- Entry (p, q) is max ((∑ U(p,c)·Wu(c,q) + ∑ V(p,c)·Wv(c,q)) + b(0,q)) 0. -/
def layer2 (U : (⟨2, ![r, k₁]⟩ : Shape).Idx → EReal) (V : (⟨2, ![r, k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) : (⟨2, ![r, n]⟩ : Shape).Idx → EReal :=
  biasRelu (fun i => matProd U Wu i + matProd V Wv i) b

/-- Entry (p, q) is max (((∑ U(p,c)·Wu(c,q) + ∑ V(p,c)·Wv(c,q)) + ∑ E(p,c)·We(c,q)) + b(0,q)) 0. -/
def layer3 (U : (⟨2, ![r, k₁]⟩ : Shape).Idx → EReal) (V : (⟨2, ![r, k₂]⟩ : Shape).Idx → EReal)
    (E : (⟨2, ![r, k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) : (⟨2, ![r, n]⟩ : Shape).Idx → EReal :=
  biasRelu (fun i => matProd U Wu i + matProd V Wv i + matProd E We i) b

theorem layer2_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (Wu : (⟨2, ![k₁, n]⟩ : Shape).Idx → EReal) (Wv : (⟨2, ![k₂, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c)) :
    layer2 U' V' Wu Wv b (ix2 p' q) = layer2 U V Wu Wv b (ix2 p q) := by
  refine biasRelu_rows _ _ b p' p q ?_
  show matProd U' Wu (ix2 p' q) + matProd V' Wv (ix2 p' q) = matProd U Wu (ix2 p q) + matProd V Wv (ix2 p q)
  rw [matProd_rows U U' Wu p' p q hU, matProd_rows V V' Wv p' p q hV]

theorem layer3_rows (U : (⟨2, ![r, k₁]⟩ : Shape).Idx → EReal) (U' : (⟨2, ![r', k₁]⟩ : Shape).Idx → EReal)
    (V : (⟨2, ![r, k₂]⟩ : Shape).Idx → EReal) (V' : (⟨2, ![r', k₂]⟩ : Shape).Idx → EReal)
    (E : (⟨2, ![r, k₃]⟩ : Shape).Idx → EReal) (E' : (⟨2, ![r', k₃]⟩ : Shape).Idx → EReal)
    (Wu : (⟨2, ![k₁, n]⟩ : Shape).Idx → EReal) (Wv : (⟨2, ![k₂, n]⟩ : Shape).Idx → EReal)
    (We : (⟨2, ![k₃, n]⟩ : Shape).Idx → EReal)
    (b : (⟨2, ![1, n]⟩ : Shape).Idx → EReal) (p' : Fin r') (p : Fin r) (q : Fin n)
    (hU : ∀ c : Fin k₁, U' (ix2 p' c) = U (ix2 p c)) (hV : ∀ c : Fin k₂, V' (ix2 p' c) = V (ix2 p c))
    (hE : ∀ c : Fin k₃, E' (ix2 p' c) = E (ix2 p c)) :
    layer3 U' V' E' Wu Wv We b (ix2 p' q) = layer3 U V E Wu Wv We b (ix2 p q) := by
  refine biasRelu_rows _ _ b p' p q ?_
  show matProd U' Wu (ix2 p' q) + matProd V' Wv (ix2 p' q) + matProd E' We (ix2 p' q)
    = matProd U Wu (ix2 p q) + matProd V Wv (ix2 p q) + matProd E We (ix2 p q)
  rw [matProd_rows U U' Wu p' p q hU, matProd_rows V V' Wv p' p q hV, matProd_rows E E' We p' p q hE]

end Cert.Lib.SplitLayers

end
-- ==== Proof.LibGraphLayers.lean ====
/-
  The layers of a two-round graph encoder on the extended reals, as functions of whole arrays.

  A graph-convolution layer takes the aggregated messages A and the node features H (both r×k), two weight matrices
  R and Q (k×n) and a bias row b, and returns max ((A·R + b) + H·Q, 0) entry by entry; a linear head returns H·W + b.
  Here are the two functions, the kernel body's spelling of each (products accumulated into zeros over operands whose
  change of float format is the identity on the extended reals, the bias row broadcast down the rows, the maximum
  taken with a splat of the zero word), the reference's spelling (the host's dot_general, the bias vector broadcast
  into a row and then down the rows, the maximum with a broadcast zero), and the fact that row p of a result depends on
  row p of A and of H only, so that a block of rows of the result is the layer of that block of rows. Sums and the
  additions of extended reals are taken exactly in the order both programs write them, so no finiteness is asked.
  Nothing here mentions a program.
-/
import Idealize.ShloMosaic.PureOps.Ideal.Laws
import Idealize.ShloMosaic.Lib.ValueIdx
import Idealize.ShloMosaic.Lib.Pipeline.Value
import proofs.«179849_j266287972767_1_alg».proof.Proof.LibBlockReads
import proofs.«179849_j266287972767_1_alg».proof.Proof.LibMatProd
import proofs.«179849_j266287972767_1_alg».proof.Proof.LibRowVector
import proofs.«179849_j266287972767_1_alg».proof.Proof.LibBiasRelu
import proofs.«179849_j266287972767_1_alg».proof.Proof.LibSplitLayers

open scoped BigOperators

noncomputable section

namespace Cert.Lib.GraphLayers

open Idealize.ShloMosaic Idealize.ShloMosaic.ValueIdx Cert.Lib.MatProd Cert.Lib.BiasRelu Cert.Lib.RowVector
  Cert.Lib.SplitLayers

variable {r r' k n : Nat}

/-! ## A change of float format is the identity on the extended reals -/

theorem truncf_id {s : Shape} {φ ψ : FTy} (a : FVec Ideal s φ) (h : ψ.bits < φ.bits) :
    (truncf ψ a h : FVec Ideal s ψ) = a := rfl

/-! ## One dense layer, in the kernel body's spelling -/

/-- A product into zeros of the operands (their format changed, which is the identity), the bias row broadcast down
    the rows and added, the maximum with a splat of the zero word: the layer max (X·W + b, 0). -/
theorem layer_body (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    {φ : FTy} (X : FVec Ideal ⟨2, ![r, k]⟩ φ) (W : FVec Ideal ⟨2, ![k, n]⟩ .f32) (b : FVec Ideal ⟨2, ![1, n]⟩ .f32)
    (hW : FTy.bits .bf16 < FTy.bits .f32) (hb : (⟨2, ![1, n]⟩ : Shape).Broadcasts ⟨2, ![r, n]⟩) :
    maximumf (addf (matmul d none X (truncf .bf16 W hW) (constant ⟨2, ![r, n]⟩ .f32 0x00000000#32))
        (broadcastTo ⟨2, ![r, n]⟩ b hb))
      (broadcast ⟨2, ![r, n]⟩ (Scalar.ofBits (F := Ideal) .f32 0x00000000#32)) = layer X W b := by
  rw [matmul_zero_eq_matProd d hlc hrc hln hrn hlb hrb none X (truncf .bf16 W hW)]
  exact relu_bias_eq (matProd X W) b hb

/-! ## The graph-convolution layer -/

/-- Entry (p, q) is max ((∑ c, A(p,c)·R(c,q) + b(0,q)) + ∑ c, H(p,c)·Q(c,q), 0). -/
def conv (A H : (⟨2, ![r, k]⟩ : Shape).Idx → EReal) (R Q : (⟨2, ![k, n]⟩ : Shape).Idx → EReal)
    (b : (⟨2, ![1, n]⟩ : Shape).Idx → EReal) : (⟨2, ![r, n]⟩ : Shape).Idx → EReal :=
  fun i => max ((matProd A R i + b (ix2 (0 : Fin 1) (⟨(i 1).val, idx2_lt1 i⟩ : Fin n))) + matProd H Q i)
    (Ideal.ofBits .f32 0x00000000#32)

theorem conv_apply (A H : (⟨2, ![r, k]⟩ : Shape).Idx → EReal) (R Q : (⟨2, ![k, n]⟩ : Shape).Idx → EReal)
    (b : (⟨2, ![1, n]⟩ : Shape).Idx → EReal) (p : Fin r) (q : Fin n) :
    conv A H R Q b (ix2 p q)
      = max ((matProd A R (ix2 p q) + b (ix2 0 q)) + matProd H Q (ix2 p q)) (Ideal.ofBits .f32 0x00000000#32) := rfl

/-- Row p' of the layer of (A', H') is row p of the layer of (A, H) when the rows of the inputs agree. -/
theorem conv_rows (A H : (⟨2, ![r, k]⟩ : Shape).Idx → EReal) (A' H' : (⟨2, ![r', k]⟩ : Shape).Idx → EReal)
    (R Q : (⟨2, ![k, n]⟩ : Shape).Idx → EReal) (b : (⟨2, ![1, n]⟩ : Shape).Idx → EReal)
    (p' : Fin r') (p : Fin r) (q : Fin n)
    (hA : ∀ c : Fin k, A' (ix2 p' c) = A (ix2 p c)) (hH : ∀ c : Fin k, H' (ix2 p' c) = H (ix2 p c)) :
    conv A' H' R Q b (ix2 p' q) = conv A H R Q b (ix2 p q) := by
  rw [conv_apply, conv_apply, matProd_rows A A' R p' p q hA, matProd_rows H H' Q p' p q hH]

/-- The kernel body's spelling. -/
theorem conv_body (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A H : FVec Ideal ⟨2, ![r, k]⟩ .f32) (R Q : FVec Ideal ⟨2, ![k, n]⟩ .f32) (b : FVec Ideal ⟨2, ![1, n]⟩ .f32)
    (hW : FTy.bits .bf16 < FTy.bits .f32) (hb : (⟨2, ![1, n]⟩ : Shape).Broadcasts ⟨2, ![r, n]⟩) :
    maximumf (addf (addf (matmul d none (truncf .bf16 A hW) (truncf .bf16 R hW) (constant ⟨2, ![r, n]⟩ .f32 0x00000000#32))
          (broadcastTo ⟨2, ![r, n]⟩ b hb))
        (matmul d none (truncf .bf16 H hW) (truncf .bf16 Q hW) (constant ⟨2, ![r, n]⟩ .f32 0x00000000#32)))
      (broadcast ⟨2, ![r, n]⟩ (Scalar.ofBits (F := Ideal) .f32 0x00000000#32)) = conv A H R Q b := by
  rw [matmul_zero_eq_matProd d hlc hrc hln hrn hlb hrb none (truncf .bf16 A hW) (truncf .bf16 R hW),
    matmul_zero_eq_matProd d hlc hrc hln hrn hlb hrb none (truncf .bf16 H hW) (truncf .bf16 Q hW)]
  funext i
  obtain ⟨p, q, rfl⟩ : ∃ (p : Fin r) (q : Fin n), i = ix2 p q := ⟨i 0, i 1, eq_ix2 i⟩
  rw [maximumf_apply, addf_apply, addf_apply, Cert.Lib.BlockReads.broadcast_row_apply]
  rfl

/-- The reference's spelling. -/
theorem conv_host (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A H : FVec Ideal ⟨2, ![r, k]⟩ .f32) (R Q : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1])
    (h3 : (⟨0, ![]⟩ : Shape).BroadcastsInDim ⟨2, ![r, n]⟩ ![]) :
    maximumf (addf (addf (Host.dotGeneral d none A R)
          (broadcastInDim ⟨2, ![r, n]⟩ ![0, 1] h2 (broadcastInDim ⟨2, ![1, n]⟩ ![1] h1 bv)))
        (Host.dotGeneral d none H Q))
      (broadcastInDim ⟨2, ![r, n]⟩ ![] h3 (constant (F := Ideal) ⟨0, ![]⟩ .f32 0x00000000#32))
    = conv A H R Q (asRow bv) := by
  have e1 : Host.dotGeneral d none A R = matProd A R := dotGeneral_eq_matProd d hlc hrc hln hrn hlb hrb none _ A R
  have e2 : Host.dotGeneral d none H Q = matProd H Q := dotGeneral_eq_matProd d hlc hrc hln hrn hlb hrb none _ H Q
  rw [e1, e2]
  funext i
  obtain ⟨p, q, rfl⟩ : ∃ (p : Fin r) (q : Fin n), i = ix2 p q := ⟨i 0, i 1, eq_ix2 i⟩
  rw [maximumf_apply, addf_apply, addf_apply, bcastInDim_rows_apply, bcastInDim_eq_asRow, bcastInDim_scalar_apply]
  rfl

/-! ## The linear head -/

/-- Entry (p, q) is ∑ c, H(p,c)·W(c,q) + b(0,q). -/
def head (H : (⟨2, ![r, k]⟩ : Shape).Idx → EReal) (W : (⟨2, ![k, n]⟩ : Shape).Idx → EReal)
    (b : (⟨2, ![1, n]⟩ : Shape).Idx → EReal) : (⟨2, ![r, n]⟩ : Shape).Idx → EReal :=
  fun i => matProd H W i + b (ix2 (0 : Fin 1) (⟨(i 1).val, idx2_lt1 i⟩ : Fin n))

theorem head_apply (H : (⟨2, ![r, k]⟩ : Shape).Idx → EReal) (W : (⟨2, ![k, n]⟩ : Shape).Idx → EReal)
    (b : (⟨2, ![1, n]⟩ : Shape).Idx → EReal) (p : Fin r) (q : Fin n) :
    head H W b (ix2 p q) = matProd H W (ix2 p q) + b (ix2 0 q) := rfl

theorem head_rows (H : (⟨2, ![r, k]⟩ : Shape).Idx → EReal) (H' : (⟨2, ![r', k]⟩ : Shape).Idx → EReal)
    (W : (⟨2, ![k, n]⟩ : Shape).Idx → EReal) (b : (⟨2, ![1, n]⟩ : Shape).Idx → EReal)
    (p' : Fin r') (p : Fin r) (q : Fin n) (hH : ∀ c : Fin k, H' (ix2 p' c) = H (ix2 p c)) :
    head H' W b (ix2 p' q) = head H W b (ix2 p q) := by
  rw [head_apply, head_apply, matProd_rows H H' W p' p q hH]

/-- The kernel body's spelling: the left operand is already in the narrow format. -/
theorem head_body (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    {φ : FTy} (H : FVec Ideal ⟨2, ![r, k]⟩ φ) (W : FVec Ideal ⟨2, ![k, n]⟩ .f32) (b : FVec Ideal ⟨2, ![1, n]⟩ .f32)
    (hW : FTy.bits .bf16 < FTy.bits .f32) (hb : (⟨2, ![1, n]⟩ : Shape).Broadcasts ⟨2, ![r, n]⟩) :
    addf (matmul d none H (truncf .bf16 W hW) (constant ⟨2, ![r, n]⟩ .f32 0x00000000#32))
      (broadcastTo ⟨2, ![r, n]⟩ b hb) = head H W b := by
  rw [matmul_zero_eq_matProd d hlc hrc hln hrn hlb hrb none H (truncf .bf16 W hW)]
  funext i
  obtain ⟨p, q, rfl⟩ : ∃ (p : Fin r) (q : Fin n), i = ix2 p q := ⟨i 0, i 1, eq_ix2 i⟩
  rw [addf_apply, Cert.Lib.BlockReads.broadcast_row_apply]
  rfl

/-- The reference's spelling. -/
theorem head_host (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (H : FVec Ideal ⟨2, ![r, k]⟩ .f32) (W : FVec Ideal ⟨2, ![k, n]⟩ .f32) (bv : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![r, n]⟩ ![0, 1]) :
    addf (Host.dotGeneral d none H W)
      (broadcastInDim ⟨2, ![r, n]⟩ ![0, 1] h2 (broadcastInDim ⟨2, ![1, n]⟩ ![1] h1 bv)) = head H W (asRow bv) := by
  have e1 : Host.dotGeneral d none H W = matProd H W := dotGeneral_eq_matProd d hlc hrc hln hrn hlb hrb none _ H W
  rw [e1]
  funext i
  obtain ⟨p, q, rfl⟩ : ∃ (p : Fin r) (q : Fin n), i = ix2 p q := ⟨i 0, i 1, eq_ix2 i⟩
  rw [addf_apply, bcastInDim_rows_apply, bcastInDim_eq_asRow]
  rfl

end Cert.Lib.GraphLayers

end
-- ==== Proof.LibConvBiasLast.lean ====
/-
  A graph-convolution layer whose kernel body adds the bias row LAST, on the extended reals.

  The layer is max ((A·R + b) + H·Q, 0) entry by entry (the function `conv` of the graph-layer library). A kernel body
  may instead accumulate the two products first and add the bias row afterwards: max ((A·R + H·Q) + b, 0). Addition of
  extended reals is commutative and associative with no side condition, so (x + y) + z = (x + z) + y and the two are
  one function. Also here: an entry of the layer depends on one row of A and of H, one column of R and of Q and one
  entry of b, so the layer of arrays that are read out of larger ones agrees with the layer of the larger ones at the
  matching entry. Nothing here mentions a program.
-/
import Idealize.ShloMosaic.PureOps.Ideal.Laws
import Idealize.ShloMosaic.Lib.ValueIdx
import Idealize.ShloMosaic.Lib.Pipeline.Value
import proofs.«179849_j266287972767_1_alg».proof.Proof.LibBlockReads
import proofs.«179849_j266287972767_1_alg».proof.Proof.LibMatProd
import proofs.«179849_j266287972767_1_alg».proof.Proof.LibGraphLayers

open scoped BigOperators

noncomputable section

namespace Cert.Lib.ConvBiasLast

open Idealize.ShloMosaic Idealize.ShloMosaic.ValueIdx Cert.Lib.MatProd Cert.Lib.GraphLayers

variable {r r' k n : Nat}

/-- The kernel body's spelling with the bias row added after both products. -/
theorem conv_body_bias_last (d : DotDims ⟨2, ![r, k]⟩ ⟨2, ![k, n]⟩ ⟨2, ![r, n]⟩)
    (hlc : d.lhsContracting = [1]) (hrc : d.rhsContracting = [0]) (hln : d.lhsNonContracting = [0])
    (hrn : d.rhsNonContracting = [1]) (hlb : d.lhsBatch = []) (hrb : d.rhsBatch = [])
    (A H : FVec Ideal ⟨2, ![r, k]⟩ .f32) (R Q : FVec Ideal ⟨2, ![k, n]⟩ .f32) (b : FVec Ideal ⟨2, ![1, n]⟩ .f32)
    (hW : FTy.bits .bf16 < FTy.bits .f32) (hb : (⟨2, ![1, n]⟩ : Shape).Broadcasts ⟨2, ![r, n]⟩) :
    maximumf (addf (addf (matmul d none (truncf .bf16 A hW) (truncf .bf16 R hW) (constant ⟨2, ![r, n]⟩ .f32 0x00000000#32))
          (matmul d none (truncf .bf16 H hW) (truncf .bf16 Q hW) (constant ⟨2, ![r, n]⟩ .f32 0x00000000#32)))
        (broadcastTo ⟨2, ![r, n]⟩ b hb))
      (broadcast ⟨2, ![r, n]⟩ (Scalar.ofBits (F := Ideal) .f32 0x00000000#32)) = conv A H R Q b := by
  rw [matmul_zero_eq_matProd d hlc hrc hln hrn hlb hrb none (truncf .bf16 A hW) (truncf .bf16 R hW),
    matmul_zero_eq_matProd d hlc hrc hln hrn hlb hrb none (truncf .bf16 H hW) (truncf .bf16 Q hW)]
  funext i
  obtain ⟨p, q, rfl⟩ : ∃ (p : Fin r) (q : Fin n), i = ix2 p q := ⟨i 0, i 1, eq_ix2 i⟩
  rw [maximumf_apply, addf_apply, addf_apply, Cert.Lib.BlockReads.broadcast_row_apply, conv_apply]
  show max ((matProd A R (ix2 p q) + matProd H Q (ix2 p q)) + b (ix2 0 q)) _ = _
  rw [add_right_comm]
  rfl

/-- An entry of the layer of arrays read out of larger ones is the matching entry of the layer of the larger ones:
    row p' of A' and H' is row p of A and H, column q of R' and Q' is column q of R and Q, entry q of b' is entry q
    of b. -/
theorem conv_block (A H : (⟨2, ![r, k]⟩ : Shape).Idx → EReal) (A' H' : (⟨2, ![r', k]⟩ : Shape).Idx → EReal)
    (R Q R' Q' : (⟨2, ![k, n]⟩ : Shape).Idx → EReal) (b b' : (⟨2, ![1, n]⟩ : Shape).Idx → EReal)
    (p' : Fin r') (p : Fin r) (q : Fin n)
    (hA : ∀ c : Fin k, A' (ix2 p' c) = A (ix2 p c)) (hH : ∀ c : Fin k, H' (ix2 p' c) = H (ix2 p c))
    (hR : ∀ c : Fin k, R' (ix2 c q) = R (ix2 c q)) (hQ : ∀ c : Fin k, Q' (ix2 c q) = Q (ix2 c q))
    (hb : b' (ix2 0 q) = b (ix2 0 q)) :
    conv A' H' R' Q' b' (ix2 p' q) = conv A H R Q b (ix2 p q) := by
  rw [conv_apply, conv_apply, matProd_block A A' R R' p' q p q hA hR, matProd_block H H' Q Q' p' q p q hH hQ, hb]

end Cert.Lib.ConvBiasLast

end
-- ==== Proof.Body.lean ====
/-
  What each of the three kernels stores, on the extended reals.

  Each kernel loads a block of rows of the aggregated messages A and of the node features H, the two weight matrices
  R and Q whole and the bias row b, and stores max ((A·R + H·Q) + b, 0): the two products into zero accumulators over
  operands whose change of float format is the identity here, the bias row broadcast down the rows and added last,
  the maximum taken with a splat of the zero word. Re-shapings in place are the identity. So the stored block is the
  graph-convolution layer of the loaded blocks.
-/
import proofs.«179849_j266287972767_1_alg».proof.Proof.Gen.KernelIdeal.Skeleton
import proofs.«179849_j266287972767_1_alg».proof.Proof.LibConvBiasLast

noncomputable section

namespace Cert.KernelIdeal.Hand

open Idealize.ShloMosaic Idealize.ShloMosaic.ValueIdx Cert.KernelIdeal Cert.KernelIdeal.Gen
open Cert.Lib.GraphLayers Cert.Lib.ConvBiasLast

/-- The first layer's kernel stores the layer of its blocks. -/
theorem pay0_eq (x0 x1 : Vec Ideal S5000x128 .f32) (x2 x3 : Vec Ideal S128x128 .f32) (x4 : Vec Ideal S1x128 .f32) :
    k0_pay1 (F := Ideal) x0 x1 x2 x3 x4 = conv x0 x1 x2 x3 x4 := by
  unfold k0_pay1
  simp only [shapeCast_self]
  exact conv_body_bias_last dot_S5000x128_S128x128_S5000x128_1_0_0_1_n_n rfl rfl rfl rfl rfl rfl x0 x1 x2 x3 x4 _ _

/-- The second layer's kernel stores the layer of its blocks. -/
theorem pay1_eq (x0 x1 : Vec Ideal S5000x128 .f32) (x2 x3 : Vec Ideal S128x128 .f32) (x4 : Vec Ideal S1x128 .f32) :
    k1_pay1 (F := Ideal) x0 x1 x2 x3 x4 = conv x0 x1 x2 x3 x4 := by
  unfold k1_pay1
  simp only [shapeCast_self]
  exact conv_body_bias_last dot_S5000x128_S128x128_S5000x128_1_0_0_1_n_n rfl rfl rfl rfl rfl rfl x0 x1 x2 x3 x4 _ _

/-- The third layer's kernel stores the layer of its blocks. -/
theorem pay2_eq (x0 x1 : Vec Ideal S5000x128 .f32) (x2 x3 : Vec Ideal S128x128 .f32) (x4 : Vec Ideal S1x128 .f32) :
    k2_pay1 (F := Ideal) x0 x1 x2 x3 x4 = conv x0 x1 x2 x3 x4 := by
  unfold k2_pay1
  simp only [shapeCast_self]
  exact conv_body_bias_last dot_S5000x128_S128x128_S5000x128_1_0_0_1_n_n rfl rfl rfl rfl rfl rfl x0 x1 x2 x3 x4 _ _

end Cert.KernelIdeal.Hand

end
-- ==== Proof.Region0.lean ====
/-
  The first layer's kernel region as one function of whole arrays, on the extended reals.

  The region runs over 20 grid points. At point t it fetches rows 5000·t … 5000·t + 4999 of the aggregated messages
  and of the node features, the two weight matrices whole and the bias row, and writes back, to the same rows of the
  result, the graph-convolution layer of those blocks. An entry of the layer depends on one row of the messages and of
  the features only, so what point t writes is rows 5000·t … of the layer of the WHOLE arrays; the 20 blocks of
  5000 rows tile the 100000 rows, so the result array ends holding the layer of the whole arrays. The arrays are
  whatever the region finds on entry (a parameter here).
-/
import proofs.«179849_j266287972767_1_alg».proof.Proof.Gen.KernelIdeal.Frame
import proofs.«179849_j266287972767_1_alg».proof.Proof.Body
import Idealize.ShloMosaic.Lib.Pipeline.Value
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Lib.GraphLayers Cert.Lib.ConvBiasLast

variable (V : (c : Dev nD) → (b : Ref sig .tc) → Buf (Elt Ideal) ((c : Thread nD τ).loc b))

theorem zeros0 : (![0, 0] : Fin 2 → Nat) = fun _ => 0 := funext fun a => by fin_cases a <;> rfl

/-- The block index of each window at each of the 20 points: the row-blocked windows move with the point, the
    weights and the bias stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The messages' block at point t is rows 5000·t … of the messages' array. -/
theorem blk0_0 (c : Dev nD) (t : Fin cfg0.N) (x : S5000x128.Idx) (k : S100000x128.Idx)
    (hk0 : (k 0).val = t.val * 5000 + (x 0).val) (hk1 : (k 1).val = (x 1).val) :
    (iblk0 V c 0 t : Vec Ideal S5000x128 .f32) x = (V c main_v24 : S100000x128.Idx → Elt Ideal .f32) k := by
  obtain ⟨e0, e1, -⟩ := idx_facts0 t
  unfold iblk0
  rw [View.read_apply]
  show V c main_v24 _ = V c main_v24 _
  refine congrArg (V c main_v24) ?_
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The features' block at point t is rows 5000·t … of the features' array. -/
theorem blk0_1 (c : Dev nD) (t : Fin cfg0.N) (x : S5000x128.Idx) (k : S100000x128.Idx)
    (hk0 : (k 0).val = t.val * 5000 + (x 0).val) (hk1 : (k 1).val = (x 1).val) :
    (iblk0 V c 1 t : Vec Ideal S5000x128 .f32) x = (V c main_arg0 : S100000x128.Idx → Elt Ideal .f32) k := by
  obtain ⟨-, -, e0, e1, -⟩ := idx_facts0 t
  unfold iblk0
  rw [View.read_apply]
  show V c main_arg0 _ = V c main_arg0 _
  refine congrArg (V c main_arg0) ?_
  funext a
  apply Fin.ext
  match a with
  | ⟨0, _⟩ => show win0_1.index t 0 * 5000 + 1 * (x 0).val = (k 0).val; rw [e0, hk0]; omega
  | ⟨1, _⟩ => show win0_1.index t 1 * 128 + 1 * (x 1).val = (k 1).val; rw [e1, hk1]; omega

/-- The first weight matrix's block is the whole matrix at every point. -/
theorem blk0_2 (c : Dev nD) (t : Fin cfg0.N) (x : S128x128.Idx) :
    (iblk0 V c 2 t : Vec Ideal S128x128 .f32) x = (V c main_arg2 : S128x128.Idx → Elt Ideal .f32) x := by
  obtain ⟨-, -, -, -, e0, e1, -⟩ := idx_facts0 t
  unfold iblk0
  rw [View.read_apply]
  show V c main_arg2 _ = V c main_arg2 _
  refine congrArg (V c main_arg2) ?_
  funext a
  apply Fin.ext
  match a with
  | ⟨0, _⟩ => show win0_2.index t 0 * 128 + 1 * (x 0).val = (x 0).val; rw [e0]; omega
  | ⟨1, _⟩ => show win0_2.index t 1 * 128 + 1 * (x 1).val = (x 1).val; rw [e1]; omega

/-- The second weight matrix's block is the whole matrix at every point. -/
theorem blk0_3 (c : Dev nD) (t : Fin cfg0.N) (x : S128x128.Idx) :
    (iblk0 V c 3 t : Vec Ideal S128x128 .f32) x = (V c main_arg3 : S128x128.Idx → Elt Ideal .f32) x := by
  obtain ⟨-, -, -, -, -, -, e0, e1, -⟩ := idx_facts0 t
  unfold iblk0
  rw [View.read_apply]
  show V c main_arg3 _ = V c main_arg3 _
  refine congrArg (V c main_arg3) ?_
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- The bias row's block is the whole row at every point. -/
theorem blk0_4 (c : Dev nD) (t : Fin cfg0.N) (x : S1x128.Idx) :
    (iblk0 V c 4 t : Vec Ideal S1x128 .f32) x = (V c main_v25 : S1x128.Idx → Elt Ideal .f32) x := by
  obtain ⟨-, -, -, -, -, -, -, -, e0, e1, -⟩ := idx_facts0 t
  unfold iblk0
  rw [View.read_apply]
  show V c main_v25 _ = V c main_v25 _
  refine congrArg (V c main_v25) ?_
  funext a
  apply Fin.ext
  match a with
  | ⟨0, _⟩ => show win0_4.index t 0 * 1 + 1 * (x 0).val = (x 0).val; rw [e0]; omega
  | ⟨1, _⟩ => show win0_4.index t 1 * 128 + 1 * (x 1).val = (x 1).val; rw [e1]; omega

/-- The layer of the whole arrays as the region finds them. -/
abbrev layer0 (c : Dev nD) : Buf (Elt Ideal) ((c : Thread nD τ).loc main_v26) :=
  conv (V c main_v24 : S100000x128.Idx → Elt Ideal .f32) (V c main_arg0 : S100000x128.Idx → Elt Ideal .f32)
    (V c main_arg2 : S128x128.Idx → Elt Ideal .f32) (V c main_arg3 : S128x128.Idx → Elt Ideal .f32)
    (V c main_v25 : S1x128.Idx → Elt Ideal .f32)

/-- The layer of point t's blocks at entry y is the layer of the whole arrays at row 5000·t + (row of y). -/
theorem layer0_at (c : Dev nD) (t : Fin cfg0.N) (y : S5000x128.Idx) (i : S100000x128.Idx)
    (hi0 : (i 0).val = t.val * 5000 + (y 0).val) (hi1 : (i 1).val = (y 1).val) :
    conv (iblk0 V c 0 t : Vec Ideal S5000x128 .f32) (iblk0 V c 1 t : Vec Ideal S5000x128 .f32)
      (iblk0 V c 2 t : Vec Ideal S128x128 .f32) (iblk0 V c 3 t : Vec Ideal S128x128 .f32)
      (iblk0 V c 4 t : Vec Ideal S1x128 .f32) y = layer0 V c i := by
  obtain ⟨p', q, rfl⟩ : ∃ (p' : Fin 5000) (q : Fin 128), y = ix2 p' q := ⟨y 0, y 1, eq_ix2 y⟩
  obtain ⟨p, q', rfl⟩ : ∃ (p : Fin 100000) (q' : Fin 128), i = ix2 p q' := ⟨i 0, i 1, eq_ix2 i⟩
  have hq : q' = q := Fin.ext hi1
  subst hq
  exact conv_block _ _ _ _ _ _ _ _ _ _ p' p q'
    (fun cc => blk0_0 V c t (ix2 p' cc) (ix2 p cc) hi0 rfl)
    (fun cc => blk0_1 V c t (ix2 p' cc) (ix2 p cc) hi0 rfl)
    (fun cc => blk0_2 V c t (ix2 cc q'))
    (fun cc => blk0_3 V c t (ix2 cc q'))
    (blk0_4 V c t (ix2 0 q'))

/-- What point t writes back is block t of the layer of the whole arrays. -/
theorem flushed0_eq (c : Dev nD) (t : Fin cfg0.N) :
    (dat0 V c).flushed 5 t = ((cfg0.win 5).blk t).view.read (Elt Ideal) (layer0 V c) := by
  show (cfg0.win 5).cut (grid0.coords t) ((dat0 V c).after 5 t) = _
  rw [after0_5]
  unfold out0_5
  rw [View.canon_unit_zero zeros0]
  simp only [View.ld_unit_zero (S := S5000x128) zeros0, View.ld_unit_zero (S := S128x128) zeros0,
    View.ld_unit_zero (S := S1x128) zeros0]
  rw [pay0_eq]
  obtain ⟨-, -, -, -, -, -, -, -, -, -, e0, e1⟩ := idx_facts0 t
  funext j
  refine layer0_at V c t j (((cfg0.win 5).blk t).view.emb j) ?_ ?_
  · show win0_5.index t 0 * 5000 + 1 * (j 0).val = t.val * 5000 + (j 0).val
    rw [e0]; omega
  · show win0_5.index t 1 * 128 + 1 * (j 1).val = (j 1).val
    rw [e1]; omega

/-- An index of the result is in point t's block iff each coordinate is in the block's range on its axis. -/
theorem mem_blk0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Row r of the result is in the block of point r / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e0, e1⟩ := idx_facts0 ⟨(i 0).val / 5000, ht⟩
  refine ⟨⟨(i 0).val / 5000, ht⟩, flush0_5 _, ?_⟩
  rw [mem_blk0]
  intro a
  match a with
  | ⟨0, _⟩ =>
    show win0_5.index ⟨(i 0).val / 5000, ht⟩ 0 * 5000 ≤ (i 0).val
      ∧ (i 0).val < win0_5.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ 1 * 128 ≤ (i 1).val
      ∧ (i 1).val < win0_5.index ⟨(i 0).val / 5000, ht⟩ 1 * 128 + 128
    rw [e1]
    omega

/-- The result array after the region is the layer of the arrays the region found. -/
theorem final0 (c : Dev nD) : (dat0 V c).arrAt 5 cfg0.N = layer0 V c :=
  (dat0 V c).arrAt_eq_of_cover 5 (layer0 V c) (fun t _ => flushed0_eq V c t) (cover0)

end Cert.KernelIdeal.Hand

end
-- ==== Proof.Region1.lean ====
/-
  The second layer's kernel region as one function of whole arrays, on the extended reals.

  The region runs over 20 grid points. At point t it fetches rows 5000·t … 5000·t + 4999 of the aggregated messages
  and of the node features, the two weight matrices whole and the bias row, and writes back, to the same rows of the
  result, the graph-convolution layer of those blocks. An entry of the layer depends on one row of the messages and of
  the features only, so what point t writes is rows 5000·t … of the layer of the WHOLE arrays; the 20 blocks of
  5000 rows tile the 100000 rows, so the result array ends holding the layer of the whole arrays. The arrays are
  whatever the region finds on entry (a parameter here).
-/
import proofs.«179849_j266287972767_1_alg».proof.Proof.Gen.KernelIdeal.Frame
import proofs.«179849_j266287972767_1_alg».proof.Proof.Body
import Idealize.ShloMosaic.Lib.Pipeline.Value
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Lib.GraphLayers Cert.Lib.ConvBiasLast

variable (V : (c : Dev nD) → (b : Ref sig .tc) → Buf (Elt Ideal) ((c : Thread nD τ).loc b))

theorem zeros1 : (![0, 0] : Fin 2 → Nat) = fun _ => 0 := funext fun a => by fin_cases a <;> rfl

/-- The block index of each window at each of the 20 points: the row-blocked windows move with the point, the
    weights and the bias stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The messages' block at point t is rows 5000·t … of the messages' array. -/
theorem blk1_0 (c : Dev nD) (t : Fin cfg1.N) (x : S5000x128.Idx) (k : S100000x128.Idx)
    (hk0 : (k 0).val = t.val * 5000 + (x 0).val) (hk1 : (k 1).val = (x 1).val) :
    (iblk1 V c 0 t : Vec Ideal S5000x128 .f32) x = (V c main_v39 : S100000x128.Idx → Elt Ideal .f32) k := by
  obtain ⟨e0, e1, -⟩ := idx_facts1 t
  unfold iblk1
  rw [View.read_apply]
  show V c main_v39 _ = V c main_v39 _
  refine congrArg (V c main_v39) ?_
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The features' block at point t is rows 5000·t … of the features' array. -/
theorem blk1_1 (c : Dev nD) (t : Fin cfg1.N) (x : S5000x128.Idx) (k : S100000x128.Idx)
    (hk0 : (k 0).val = t.val * 5000 + (x 0).val) (hk1 : (k 1).val = (x 1).val) :
    (iblk1 V c 1 t : Vec Ideal S5000x128 .f32) x = (V c main_v26 : S100000x128.Idx → Elt Ideal .f32) k := by
  obtain ⟨-, -, e0, e1, -⟩ := idx_facts1 t
  unfold iblk1
  rw [View.read_apply]
  show V c main_v26 _ = V c main_v26 _
  refine congrArg (V c main_v26) ?_
  funext a
  apply Fin.ext
  match a with
  | ⟨0, _⟩ => show win1_1.index t 0 * 5000 + 1 * (x 0).val = (k 0).val; rw [e0, hk0]; omega
  | ⟨1, _⟩ => show win1_1.index t 1 * 128 + 1 * (x 1).val = (k 1).val; rw [e1, hk1]; omega

/-- The first weight matrix's block is the whole matrix at every point. -/
theorem blk1_2 (c : Dev nD) (t : Fin cfg1.N) (x : S128x128.Idx) :
    (iblk1 V c 2 t : Vec Ideal S128x128 .f32) x = (V c main_arg5 : S128x128.Idx → Elt Ideal .f32) x := by
  obtain ⟨-, -, -, -, e0, e1, -⟩ := idx_facts1 t
  unfold iblk1
  rw [View.read_apply]
  show V c main_arg5 _ = V c main_arg5 _
  refine congrArg (V c main_arg5) ?_
  funext a
  apply Fin.ext
  match a with
  | ⟨0, _⟩ => show win1_2.index t 0 * 128 + 1 * (x 0).val = (x 0).val; rw [e0]; omega
  | ⟨1, _⟩ => show win1_2.index t 1 * 128 + 1 * (x 1).val = (x 1).val; rw [e1]; omega

/-- The second weight matrix's block is the whole matrix at every point. -/
theorem blk1_3 (c : Dev nD) (t : Fin cfg1.N) (x : S128x128.Idx) :
    (iblk1 V c 3 t : Vec Ideal S128x128 .f32) x = (V c main_arg6 : S128x128.Idx → Elt Ideal .f32) x := by
  obtain ⟨-, -, -, -, -, -, e0, e1, -⟩ := idx_facts1 t
  unfold iblk1
  rw [View.read_apply]
  show V c main_arg6 _ = V c main_arg6 _
  refine congrArg (V c main_arg6) ?_
  funext a
  apply Fin.ext
  match a with
  | ⟨0, _⟩ => show win1_3.index t 0 * 128 + 1 * (x 0).val = (x 0).val; rw [e0]; omega
  | ⟨1, _⟩ => show win1_3.index t 1 * 128 + 1 * (x 1).val = (x 1).val; rw [e1]; omega

/-- The bias row's block is the whole row at every point. -/
theorem blk1_4 (c : Dev nD) (t : Fin cfg1.N) (x : S1x128.Idx) :
    (iblk1 V c 4 t : Vec Ideal S1x128 .f32) x = (V c main_v40 : S1x128.Idx → Elt Ideal .f32) x := by
  obtain ⟨-, -, -, -, -, -, -, -, e0, e1, -⟩ := idx_facts1 t
  unfold iblk1
  rw [View.read_apply]
  show V c main_v40 _ = V c main_v40 _
  refine congrArg (V c main_v40) ?_
  funext a
  apply Fin.ext
  match a with
  | ⟨0, _⟩ => show win1_4.index t 0 * 1 + 1 * (x 0).val = (x 0).val; rw [e0]; omega
  | ⟨1, _⟩ => show win1_4.index t 1 * 128 + 1 * (x 1).val = (x 1).val; rw [e1]; omega

/-- The layer of the whole arrays as the region finds them. -/
abbrev layer1 (c : Dev nD) : Buf (Elt Ideal) ((c : Thread nD τ).loc main_v41) :=
  conv (V c main_v39 : S100000x128.Idx → Elt Ideal .f32) (V c main_v26 : S100000x128.Idx → Elt Ideal .f32)
    (V c main_arg5 : S128x128.Idx → Elt Ideal .f32) (V c main_arg6 : S128x128.Idx → Elt Ideal .f32)
    (V c main_v40 : S1x128.Idx → Elt Ideal .f32)

/-- The layer of point t's blocks at entry y is the layer of the whole arrays at row 5000·t + (row of y). -/
theorem layer1_at (c : Dev nD) (t : Fin cfg1.N) (y : S5000x128.Idx) (i : S100000x128.Idx)
    (hi0 : (i 0).val = t.val * 5000 + (y 0).val) (hi1 : (i 1).val = (y 1).val) :
    conv (iblk1 V c 0 t : Vec Ideal S5000x128 .f32) (iblk1 V c 1 t : Vec Ideal S5000x128 .f32)
      (iblk1 V c 2 t : Vec Ideal S128x128 .f32) (iblk1 V c 3 t : Vec Ideal S128x128 .f32)
      (iblk1 V c 4 t : Vec Ideal S1x128 .f32) y = layer1 V c i := by
  obtain ⟨p', q, rfl⟩ : ∃ (p' : Fin 5000) (q : Fin 128), y = ix2 p' q := ⟨y 0, y 1, eq_ix2 y⟩
  obtain ⟨p, q', rfl⟩ : ∃ (p : Fin 100000) (q' : Fin 128), i = ix2 p q' := ⟨i 0, i 1, eq_ix2 i⟩
  have hq : q' = q := Fin.ext hi1
  subst hq
  exact conv_block _ _ _ _ _ _ _ _ _ _ p' p q'
    (fun cc => blk1_0 V c t (ix2 p' cc) (ix2 p cc) hi0 rfl)
    (fun cc => blk1_1 V c t (ix2 p' cc) (ix2 p cc) hi0 rfl)
    (fun cc => blk1_2 V c t (ix2 cc q'))
    (fun cc => blk1_3 V c t (ix2 cc q'))
    (blk1_4 V c t (ix2 0 q'))

/-- What point t writes back is block t of the layer of the whole arrays. -/
theorem flushed1_eq (c : Dev nD) (t : Fin cfg1.N) :
    (dat1 V c).flushed 5 t = ((cfg1.win 5).blk t).view.read (Elt Ideal) (layer1 V c) := by
  show (cfg1.win 5).cut (grid1.coords t) ((dat1 V c).after 5 t) = _
  rw [after1_5]
  unfold out1_5
  rw [View.canon_unit_zero zeros1]
  simp only [View.ld_unit_zero (S := S5000x128) zeros1, View.ld_unit_zero (S := S128x128) zeros1,
    View.ld_unit_zero (S := S1x128) zeros1]
  rw [pay1_eq]
  obtain ⟨-, -, -, -, -, -, -, -, -, -, e0, e1⟩ := idx_facts1 t
  funext j
  refine layer1_at V c t j (((cfg1.win 5).blk t).view.emb j) ?_ ?_
  · show win1_5.index t 0 * 5000 + 1 * (j 0).val = t.val * 5000 + (j 0).val
    rw [e0]; omega
  · show win1_5.index t 1 * 128 + 1 * (j 1).val = (j 1).val
    rw [e1]; omega

/-- An index of the result is in point t's block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v41).slice (win1_5.rect t)).set ↔ _
  rw [View.set_slice_whole, Rect.mem_set_unit]
  exact Iff.rfl

/-- Row r of the result is in the block of point r / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨-, -, -, -, -, -, -, -, -, -, e0, e1⟩ := idx_facts1 ⟨(i 0).val / 5000, ht⟩
  refine ⟨⟨(i 0).val / 5000, ht⟩, flush1_5 _, ?_⟩
  rw [mem_blk1]
  intro a
  match a with
  | ⟨0, _⟩ =>
    show win1_5.index ⟨(i 0).val / 5000, ht⟩ 0 * 5000 ≤ (i 0).val
      ∧ (i 0).val < win1_5.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win1_5.index ⟨(i 0).val / 5000, ht⟩ 1 * 128 ≤ (i 1).val
      ∧ (i 1).val < win1_5.index ⟨(i 0).val / 5000, ht⟩ 1 * 128 + 128
    rw [e1]
    omega

/-- The result array after the region is the layer of the arrays the region found. -/
theorem final1 (c : Dev nD) : (dat1 V c).arrAt 5 cfg1.N = layer1 V c :=
  (dat1 V c).arrAt_eq_of_cover 5 (layer1 V c) (fun t _ => flushed1_eq V c t) (cover1)

end Cert.KernelIdeal.Hand

end
-- ==== Proof.Region2.lean ====
/-
  The third layer's kernel region as one function of whole arrays, on the extended reals.

  The region runs over 20 grid points. At point t it fetches rows 5000·t … 5000·t + 4999 of the aggregated messages
  and of the node features, the two weight matrices whole and the bias row, and writes back, to the same rows of the
  result, the graph-convolution layer of those blocks. An entry of the layer depends on one row of the messages and of
  the features only, so what point t writes is rows 5000·t … of the layer of the WHOLE arrays; the 20 blocks of
  5000 rows tile the 100000 rows, so the result array ends holding the layer of the whole arrays. The arrays are
  whatever the region finds on entry (a parameter here).
-/
import proofs.«179849_j266287972767_1_alg».proof.Proof.Gen.KernelIdeal.Frame
import proofs.«179849_j266287972767_1_alg».proof.Proof.Body
import Idealize.ShloMosaic.Lib.Pipeline.Value
import Idealize.ShloMosaic.Lib.Tactic

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen Cert.Lib.GraphLayers Cert.Lib.ConvBiasLast

variable (V : (c : Dev nD) → (b : Ref sig .tc) → Buf (Elt Ideal) ((c : Thread nD τ).loc b))

theorem zeros2 : (![0, 0] : Fin 2 → Nat) = fun _ => 0 := funext fun a => by fin_cases a <;> rfl

/-- The block index of each window at each of the 20 points: the row-blocked windows move with the point, the
    weights and the bias stay at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The messages' block at point t is rows 5000·t … of the messages' array. -/
theorem blk2_0 (c : Dev nD) (t : Fin cfg2.N) (x : S5000x128.Idx) (k : S100000x128.Idx)
    (hk0 : (k 0).val = t.val * 5000 + (x 0).val) (hk1 : (k 1).val = (x 1).val) :
    (iblk2 V c 0 t : Vec Ideal S5000x128 .f32) x = (V c main_v54 : S100000x128.Idx → Elt Ideal .f32) k := by
  obtain ⟨e0, e1, -⟩ := idx_facts2 t
  unfold iblk2
  rw [View.read_apply]
  show V c main_v54 _ = V c main_v54 _
  refine congrArg (V c main_v54) ?_
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The features' block at point t is rows 5000·t … of the features' array. -/
theorem blk2_1 (c : Dev nD) (t : Fin cfg2.N) (x : S5000x128.Idx) (k : S100000x128.Idx)
    (hk0 : (k 0).val = t.val * 5000 + (x 0).val) (hk1 : (k 1).val = (x 1).val) :
    (iblk2 V c 1 t : Vec Ideal S5000x128 .f32) x = (V c main_v41 : S100000x128.Idx → Elt Ideal .f32) k := by
  obtain ⟨-, -, e0, e1, -⟩ := idx_facts2 t
  unfold iblk2
  rw [View.read_apply]
  show V c main_v41 _ = V c main_v41 _
  refine congrArg (V c main_v41) ?_
  funext a
  apply Fin.ext
  match a with
  | ⟨0, _⟩ => show win2_1.index t 0 * 5000 + 1 * (x 0).val = (k 0).val; rw [e0, hk0]; omega
  | ⟨1, _⟩ => show win2_1.index t 1 * 128 + 1 * (x 1).val = (k 1).val; rw [e1, hk1]; omega

/-- The first weight matrix's block is the whole matrix at every point. -/
theorem blk2_2 (c : Dev nD) (t : Fin cfg2.N) (x : S128x128.Idx) :
    (iblk2 V c 2 t : Vec Ideal S128x128 .f32) x = (V c main_arg8 : S128x128.Idx → Elt Ideal .f32) x := by
  obtain ⟨-, -, -, -, e0, e1, -⟩ := idx_facts2 t
  unfold iblk2
  rw [View.read_apply]
  show V c main_arg8 _ = V c main_arg8 _
  refine congrArg (V c main_arg8) ?_
  funext a
  apply Fin.ext
  match a with
  | ⟨0, _⟩ => show win2_2.index t 0 * 128 + 1 * (x 0).val = (x 0).val; rw [e0]; omega
  | ⟨1, _⟩ => show win2_2.index t 1 * 128 + 1 * (x 1).val = (x 1).val; rw [e1]; omega

/-- The second weight matrix's block is the whole matrix at every point. -/
theorem blk2_3 (c : Dev nD) (t : Fin cfg2.N) (x : S128x128.Idx) :
    (iblk2 V c 3 t : Vec Ideal S128x128 .f32) x = (V c main_arg9 : S128x128.Idx → Elt Ideal .f32) x := by
  obtain ⟨-, -, -, -, -, -, e0, e1, -⟩ := idx_facts2 t
  unfold iblk2
  rw [View.read_apply]
  show V c main_arg9 _ = V c main_arg9 _
  refine congrArg (V c main_arg9) ?_
  funext a
  apply Fin.ext
  match a with
  | ⟨0, _⟩ => show win2_3.index t 0 * 128 + 1 * (x 0).val = (x 0).val; rw [e0]; omega
  | ⟨1, _⟩ => show win2_3.index t 1 * 128 + 1 * (x 1).val = (x 1).val; rw [e1]; omega

/-- The bias row's block is the whole row at every point. -/
theorem blk2_4 (c : Dev nD) (t : Fin cfg2.N) (x : S1x128.Idx) :
    (iblk2 V c 4 t : Vec Ideal S1x128 .f32) x = (V c main_v55 : S1x128.Idx → Elt Ideal .f32) x := by
  obtain ⟨-, -, -, -, -, -, -, -, e0, e1, -⟩ := idx_facts2 t
  unfold iblk2
  rw [View.read_apply]
  show V c main_v55 _ = V c main_v55 _
  refine congrArg (V c main_v55) ?_
  funext a
  apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega

/-- The layer of the whole arrays as the region finds them. -/
abbrev layer2 (c : Dev nD) : Buf (Elt Ideal) ((c : Thread nD τ).loc main_v56) :=
  conv (V c main_v54 : S100000x128.Idx → Elt Ideal .f32) (V c main_v41 : S100000x128.Idx → Elt Ideal .f32)
    (V c main_arg8 : S128x128.Idx → Elt Ideal .f32) (V c main_arg9 : S128x128.Idx → Elt Ideal .f32)
    (V c main_v55 : S1x128.Idx → Elt Ideal .f32)

/-- The layer of point t's blocks at entry y is the layer of the whole arrays at row 5000·t + (row of y). -/
theorem layer2_at (c : Dev nD) (t : Fin cfg2.N) (y : S5000x128.Idx) (i : S100000x128.Idx)
    (hi0 : (i 0).val = t.val * 5000 + (y 0).val) (hi1 : (i 1).val = (y 1).val) :
    conv (iblk2 V c 0 t : Vec Ideal S5000x128 .f32) (iblk2 V c 1 t : Vec Ideal S5000x128 .f32)
      (iblk2 V c 2 t : Vec Ideal S128x128 .f32) (iblk2 V c 3 t : Vec Ideal S128x128 .f32)
      (iblk2 V c 4 t : Vec Ideal S1x128 .f32) y = layer2 V c i := by
  obtain ⟨p', q, rfl⟩ : ∃ (p' : Fin 5000) (q : Fin 128), y = ix2 p' q := ⟨y 0, y 1, eq_ix2 y⟩
  obtain ⟨p, q', rfl⟩ : ∃ (p : Fin 100000) (q' : Fin 128), i = ix2 p q' := ⟨i 0, i 1, eq_ix2 i⟩
  have hq : q' = q := Fin.ext hi1
  subst hq
  exact conv_block _ _ _ _ _ _ _ _ _ _ p' p q'
    (fun cc => blk2_0 V c t (ix2 p' cc) (ix2 p cc) hi0 rfl)
    (fun cc => blk2_1 V c t (ix2 p' cc) (ix2 p cc) hi0 rfl)
    (fun cc => blk2_2 V c t (ix2 cc q'))
    (fun cc => blk2_3 V c t (ix2 cc q'))
    (blk2_4 V c t (ix2 0 q'))

/-- What point t writes back is block t of the layer of the whole arrays. -/
theorem flushed2_eq (c : Dev nD) (t : Fin cfg2.N) :
    (dat2 V c).flushed 5 t = ((cfg2.win 5).blk t).view.read (Elt Ideal) (layer2 V c) := by
  show (cfg2.win 5).cut (grid2.coords t) ((dat2 V c).after 5 t) = _
  rw [after2_5]
  unfold out2_5
  rw [View.canon_unit_zero zeros2]
  simp only [View.ld_unit_zero (S := S5000x128) zeros2, View.ld_unit_zero (S := S128x128) zeros2,
    View.ld_unit_zero (S := S1x128) zeros2]
  rw [pay2_eq]
  obtain ⟨-, -, -, -, -, -, -, -, -, -, e0, e1⟩ := idx_facts2 t
  funext j
  refine layer2_at V c t j (((cfg2.win 5).blk t).view.emb j) ?_ ?_
  · show win2_5.index t 0 * 5000 + 1 * (j 0).val = t.val * 5000 + (j 0).val
    rw [e0]; omega
  · show win2_5.index t 1 * 128 + 1 * (j 1).val = (j 1).val
    rw [e1]; omega

/-- An index of the result is in point t's block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v56).slice (win2_5.rect t)).set ↔ _
  rw [View.set_slice_whole, Rect.mem_set_unit]
  exact Iff.rfl

/-- Row r of the result is in the block of point r / 5000. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  have ht : (i 0).val / 5000 < cfg2.N := by rw [hN]; omega
  obtain ⟨-, -, -, -, -, -, -, -, -, -, e0, e1⟩ := idx_facts2 ⟨(i 0).val / 5000, ht⟩
  refine ⟨⟨(i 0).val / 5000, ht⟩, flush2_5 _, ?_⟩
  rw [mem_blk2]
  intro a
  match a with
  | ⟨0, _⟩ =>
    show win2_5.index ⟨(i 0).val / 5000, ht⟩ 0 * 5000 ≤ (i 0).val
      ∧ (i 0).val < win2_5.index ⟨(i 0).val / 5000, ht⟩ 0 * 5000 + 5000
    rw [e0]
    show (i 0).val / 5000 * 5000 ≤ (i 0).val ∧ (i 0).val < (i 0).val / 5000 * 5000 + 5000
    omega
  | ⟨1, _⟩ =>
    show win2_5.index ⟨(i 0).val / 5000, ht⟩ 1 * 128 ≤ (i 1).val
      ∧ (i 1).val < win2_5.index ⟨(i 0).val / 5000, ht⟩ 1 * 128 + 128
    rw [e1]
    omega

/-- The result array after the region is the layer of the arrays the region found. -/
theorem final2 (c : Dev nD) : (dat2 V c).arrAt 5 cfg2.N = layer2 V c :=
  (dat2 V c).arrAt_eq_of_cover 5 (layer2 V c) (fun t _ => flushed2_eq V c t) (cover2)

end Cert.KernelIdeal.Hand

end
-- ==== Proof.Stages.lean ====
/-
  What the three result buffers hold at the end of the run, as functions of the launch memory.

  One round of the network, as the program spells it: the messages of round k are, for every node p, the sum over the
  edges into p of the features of the edge's source, times the reciprocal 1 / max (count p, 1) of the clamped number of
  edges into p (computed once, before the first round); the new features are the graph-convolution layer
  max ((A·R + b) + H·Q, 0) of the messages A and the old features H. Gathering along the sources and scatter-adding
  along the destinations are kept as the two host operations the program calls; nothing is asked of the edge list.
  The fold of buffer contents through the six segments is read here one segment at a time: a stretch of host
  operations leaves each buffer at its operation's function of its operands, a kernel region leaves its result array
  at the layer of the arrays it found (the region modules) and every other buffer as it was.
-/
import proofs.«179849_j266287972767_1_alg».proof.Proof.Gen.KernelIdeal.Frame
import proofs.«179849_j266287972767_1_alg».proof.Proof.Region0
import proofs.«179849_j266287972767_1_alg».proof.Proof.Region1
import proofs.«179849_j266287972767_1_alg».proof.Proof.Region2
import Idealize.ShloMosaic.Lib.StableHlo.Run

set_option maxRecDepth 16384

noncomputable section

namespace Cert.KernelIdeal.Hand

open Idealize.ShloMosaic Idealize.ShloMosaic.TcCoe Idealize.SL.Sem Idealize.ShloMosaic.ValueIdx
open Idealize.ShloMosaic.StableHlo
open Idealize.ShloMosaic.Pipeline (Dat)
open Cert.KernelIdeal Cert.KernelIdeal.Gen Cert.Lib.GraphLayers

/-! ## One round, as the program spells it -/

abbrev Feat := FVec Ideal S100000x128 .f32
abbrev Wts := FVec Ideal S128x128 .f32
abbrev Bias := FVec Ideal S128 .f32
abbrev Ids := IVec S1600000 32
abbrev Cnt := FVec Ideal S100000 .f32
abbrev Edges := IVec S2x1600000 32

/-- The destinations of the edges: row 0 of the edge list. -/
def dst (e : Edges) : Ids :=
  shapeCast S1600000 (extractStridedSlice S1x1600000 ![0, 0] e slices_S2x1600000_S1x1600000_0_0) shapeCasts_S1x1600000_S1600000

/-- The sources of the edges: row 1 of the edge list. -/
def src (e : Edges) : Ids :=
  shapeCast S1600000 (extractStridedSlice S1x1600000 ![1, 0] e slices_S2x1600000_S1x1600000_1_0) shapeCasts_S1x1600000_S1600000

/-- The number of edges into each node, clamped below at one. -/
def counts (d : Ids) : Cnt :=
  maximumf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32))

/-- Their reciprocals. -/
def recips (d : Ids) : Cnt :=
  Host.divf (broadcastInDim S100000 ![] bcast_S_S100000 (constant (F := Ideal) S_ .f32 0x3F800000#32)) (counts d)

/-- For every node, the sum over the edges into it of the features of the edge's source. -/
def sums (h : Feat) (d s : Ids) : Feat :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The messages: the sums, each row times its node's entry of a vector of scales. -/
def scaled (h : Feat) (d s : Ids) (rc : Cnt) : Feat :=
  mulf (sums h d s) (broadcastInDim S100000x128 ![0, 1] bcast_S100000x1_S100000x128_0_1
    (broadcastInDim S100000x1 ![0] bcast_S100000_S100000x1_0 rc))

/-- A bias vector as a row. -/
def biasRow (b : Bias) : FVec Ideal S1x128 .f32 := shapeCast S1x128 b shapeCasts_S128_S1x128

/-- One round: the layer of the messages and the old features. -/
def round (h : Feat) (e : Edges) (Wl Wr : Wts) (b : Bias) : Feat :=
  conv (scaled h (dst e) (src e) (recips (dst e))) h Wl Wr (biasRow b)

variable (m : (ℓ : Loc nD τ sig) → Buf (Elt Ideal) ℓ) (ρ : Dev nD → PrngReg) (c : Dev nD)

/-! ## The first stretch of host operations -/

theorem W1_v1 : W1 m ρ c (Proc.devRef .tc main_v1) = dst (m ((c : Thread nD τ).loc main_arg1)) := by
  show StableHlo.after hostOps0 (W0 m ρ c) (Proc.devRef .tc main_v1) = _
  dsimp only [hostOps0]
  after_results_simp <;> rfl
theorem W1_v3 : W1 m ρ c (Proc.devRef .tc main_v3) = src (m ((c : Thread nD τ).loc main_arg1)) := by
  show StableHlo.after hostOps0 (W0 m ρ c) (Proc.devRef .tc main_v3) = _
  dsimp only [hostOps0]
  after_results_simp <;> rfl
theorem W1_v11 : W1 m ρ c (Proc.devRef .tc main_v11) = recips (dst (m ((c : Thread nD τ).loc main_arg1))) := by
  show StableHlo.after hostOps0 (W0 m ρ c) (Proc.devRef .tc main_v11) = _
  dsimp only [hostOps0]
  after_results_simp <;> rfl
theorem W1_v24 : W1 m ρ c (Proc.devRef .tc main_v24) = scaled (m ((c : Thread nD τ).loc main_arg0)) (dst (m ((c : Thread nD τ).loc main_arg1))) (src (m ((c : Thread nD τ).loc main_arg1))) (recips (dst (m ((c : Thread nD τ).loc main_arg1)))) := by
  show StableHlo.after hostOps0 (W0 m ρ c) (Proc.devRef .tc main_v24) = _
  dsimp only [hostOps0]
  after_results_simp <;> rfl
theorem W1_v25 : W1 m ρ c (Proc.devRef .tc main_v25) = biasRow (m ((c : Thread nD τ).loc main_arg4)) := by
  show StableHlo.after hostOps0 (W0 m ρ c) (Proc.devRef .tc main_v25) = _
  dsimp only [hostOps0]
  after_results_simp <;> rfl
theorem W1_arg0 : W1 m ρ c (Proc.devRef .tc main_arg0) = (m ((c : Thread nD τ).loc main_arg0)) := by
  show StableHlo.after hostOps0 (W0 m ρ c) (Proc.devRef .tc main_arg0) = _
  dsimp only [hostOps0]
  after_results_simp <;> rfl
theorem W1_arg2 : W1 m ρ c (Proc.devRef .tc main_arg2) = (m ((c : Thread nD τ).loc main_arg2)) := by
  show StableHlo.after hostOps0 (W0 m ρ c) (Proc.devRef .tc main_arg2) = _
  dsimp only [hostOps0]
  after_results_simp <;> rfl
theorem W1_arg3 : W1 m ρ c (Proc.devRef .tc main_arg3) = (m ((c : Thread nD τ).loc main_arg3)) := by
  show StableHlo.after hostOps0 (W0 m ρ c) (Proc.devRef .tc main_arg3) = _
  dsimp only [hostOps0]
  after_results_simp <;> rfl
theorem W1_arg5 : W1 m ρ c (Proc.devRef .tc main_arg5) = (m ((c : Thread nD τ).loc main_arg5)) := by
  show StableHlo.after hostOps0 (W0 m ρ c) (Proc.devRef .tc main_arg5) = _
  dsimp only [hostOps0]
  after_results_simp <;> rfl
theorem W1_arg6 : W1 m ρ c (Proc.devRef .tc main_arg6) = (m ((c : Thread nD τ).loc main_arg6)) := by
  show StableHlo.after hostOps0 (W0 m ρ c) (Proc.devRef .tc main_arg6) = _
  dsimp only [hostOps0]
  after_results_simp <;> rfl
theorem W1_arg7 : W1 m ρ c (Proc.devRef .tc main_arg7) = (m ((c : Thread nD τ).loc main_arg7)) := by
  show StableHlo.after hostOps0 (W0 m ρ c) (Proc.devRef .tc main_arg7) = _
  dsimp only [hostOps0]
  after_results_simp <;> rfl
theorem W1_arg8 : W1 m ρ c (Proc.devRef .tc main_arg8) = (m ((c : Thread nD τ).loc main_arg8)) := by
  show StableHlo.after hostOps0 (W0 m ρ c) (Proc.devRef .tc main_arg8) = _
  dsimp only [hostOps0]
  after_results_simp <;> rfl
theorem W1_arg9 : W1 m ρ c (Proc.devRef .tc main_arg9) = (m ((c : Thread nD τ).loc main_arg9)) := by
  show StableHlo.after hostOps0 (W0 m ρ c) (Proc.devRef .tc main_arg9) = _
  dsimp only [hostOps0]
  after_results_simp <;> rfl
theorem W1_arg10 : W1 m ρ c (Proc.devRef .tc main_arg10) = (m ((c : Thread nD τ).loc main_arg10)) := by
  show StableHlo.after hostOps0 (W0 m ρ c) (Proc.devRef .tc main_arg10) = _
  dsimp only [hostOps0]
  after_results_simp <;> rfl

/-! ## The first kernel region -/

/-- The first result is one round from the input features. -/
theorem W2_v26 : W2 m ρ c (Proc.devRef .tc main_v26) = (round (m ((c : Thread nD τ).loc main_arg0)) (m ((c : Thread nD τ).loc main_arg1)) (m ((c : Thread nD τ).loc main_arg2)) (m ((c : Thread nD τ).loc main_arg3)) (m ((c : Thread nD τ).loc main_arg4))) := by
  refine ((W2_arr m ρ c 5).trans (final0 (V1 m ρ) c)).trans ?_
  show conv (W1 m ρ c (Proc.devRef .tc main_v24)) (W1 m ρ c (Proc.devRef .tc main_arg0)) (W1 m ρ c (Proc.devRef .tc main_arg2))
    (W1 m ρ c (Proc.devRef .tc main_arg3)) (W1 m ρ c (Proc.devRef .tc main_v25)) = _
  rw [W1_v24, W1_v25, W1_arg0, W1_arg2, W1_arg3]
  rfl
theorem W2_v1 : W2 m ρ c (Proc.devRef .tc main_v1) = dst (m ((c : Thread nD τ).loc main_arg1)) :=
  (W2_of_ne m ρ c main_v1 (by decide)).trans (W1_v1 m ρ c)
theorem W2_v3 : W2 m ρ c (Proc.devRef .tc main_v3) = src (m ((c : Thread nD τ).loc main_arg1)) :=
  (W2_of_ne m ρ c main_v3 (by decide)).trans (W1_v3 m ρ c)
theorem W2_v11 : W2 m ρ c (Proc.devRef .tc main_v11) = recips (dst (m ((c : Thread nD τ).loc main_arg1))) :=
  (W2_of_ne m ρ c main_v11 (by decide)).trans (W1_v11 m ρ c)
theorem W2_arg5 : W2 m ρ c (Proc.devRef .tc main_arg5) = (m ((c : Thread nD τ).loc main_arg5)) :=
  (W2_of_ne m ρ c main_arg5 (by decide)).trans (W1_arg5 m ρ c)
theorem W2_arg6 : W2 m ρ c (Proc.devRef .tc main_arg6) = (m ((c : Thread nD τ).loc main_arg6)) :=
  (W2_of_ne m ρ c main_arg6 (by decide)).trans (W1_arg6 m ρ c)
theorem W2_arg7 : W2 m ρ c (Proc.devRef .tc main_arg7) = (m ((c : Thread nD τ).loc main_arg7)) :=
  (W2_of_ne m ρ c main_arg7 (by decide)).trans (W1_arg7 m ρ c)
theorem W2_arg8 : W2 m ρ c (Proc.devRef .tc main_arg8) = (m ((c : Thread nD τ).loc main_arg8)) :=
  (W2_of_ne m ρ c main_arg8 (by decide)).trans (W1_arg8 m ρ c)
theorem W2_arg9 : W2 m ρ c (Proc.devRef .tc main_arg9) = (m ((c : Thread nD τ).loc main_arg9)) :=
  (W2_of_ne m ρ c main_arg9 (by decide)).trans (W1_arg9 m ρ c)
theorem W2_arg10 : W2 m ρ c (Proc.devRef .tc main_arg10) = (m ((c : Thread nD τ).loc main_arg10)) :=
  (W2_of_ne m ρ c main_arg10 (by decide)).trans (W1_arg10 m ρ c)

/-! ## The second stretch of host operations -/

theorem W3_v39 : W3 m ρ c (Proc.devRef .tc main_v39) = scaled (W2 m ρ c (Proc.devRef .tc main_v26)) (W2 m ρ c (Proc.devRef .tc main_v1)) (W2 m ρ c (Proc.devRef .tc main_v3)) (W2 m ρ c (Proc.devRef .tc main_v11)) := by
  show StableHlo.after hostOps1 (W2 m ρ c) (Proc.devRef .tc main_v39) = _
  dsimp only [hostOps1]
  after_results_simp <;> rfl
theorem W3_v40 : W3 m ρ c (Proc.devRef .tc main_v40) = biasRow (W2 m ρ c (Proc.devRef .tc main_arg7)) := by
  show StableHlo.after hostOps1 (W2 m ρ c) (Proc.devRef .tc main_v40) = _
  dsimp only [hostOps1]
  after_results_simp <;> rfl
theorem W3_v26 : W3 m ρ c (Proc.devRef .tc main_v26) = W2 m ρ c (Proc.devRef .tc main_v26) := by
  show StableHlo.after hostOps1 (W2 m ρ c) (Proc.devRef .tc main_v26) = _
  dsimp only [hostOps1]
  after_results_simp <;> rfl
theorem W3_v1 : W3 m ρ c (Proc.devRef .tc main_v1) = W2 m ρ c (Proc.devRef .tc main_v1) := by
  show StableHlo.after hostOps1 (W2 m ρ c) (Proc.devRef .tc main_v1) = _
  dsimp only [hostOps1]
  after_results_simp <;> rfl
theorem W3_v3 : W3 m ρ c (Proc.devRef .tc main_v3) = W2 m ρ c (Proc.devRef .tc main_v3) := by
  show StableHlo.after hostOps1 (W2 m ρ c) (Proc.devRef .tc main_v3) = _
  dsimp only [hostOps1]
  after_results_simp <;> rfl
theorem W3_v11 : W3 m ρ c (Proc.devRef .tc main_v11) = W2 m ρ c (Proc.devRef .tc main_v11) := by
  show StableHlo.after hostOps1 (W2 m ρ c) (Proc.devRef .tc main_v11) = _
  dsimp only [hostOps1]
  after_results_simp <;> rfl
theorem W3_arg5 : W3 m ρ c (Proc.devRef .tc main_arg5) = W2 m ρ c (Proc.devRef .tc main_arg5) := by
  show StableHlo.after hostOps1 (W2 m ρ c) (Proc.devRef .tc main_arg5) = _
  dsimp only [hostOps1]
  after_results_simp <;> rfl
theorem W3_arg6 : W3 m ρ c (Proc.devRef .tc main_arg6) = W2 m ρ c (Proc.devRef .tc main_arg6) := by
  show StableHlo.after hostOps1 (W2 m ρ c) (Proc.devRef .tc main_arg6) = _
  dsimp only [hostOps1]
  after_results_simp <;> rfl
theorem W3_arg8 : W3 m ρ c (Proc.devRef .tc main_arg8) = W2 m ρ c (Proc.devRef .tc main_arg8) := by
  show StableHlo.after hostOps1 (W2 m ρ c) (Proc.devRef .tc main_arg8) = _
  dsimp only [hostOps1]
  after_results_simp <;> rfl
theorem W3_arg9 : W3 m ρ c (Proc.devRef .tc main_arg9) = W2 m ρ c (Proc.devRef .tc main_arg9) := by
  show StableHlo.after hostOps1 (W2 m ρ c) (Proc.devRef .tc main_arg9) = _
  dsimp only [hostOps1]
  after_results_simp <;> rfl
theorem W3_arg10 : W3 m ρ c (Proc.devRef .tc main_arg10) = W2 m ρ c (Proc.devRef .tc main_arg10) := by
  show StableHlo.after hostOps1 (W2 m ρ c) (Proc.devRef .tc main_arg10) = _
  dsimp only [hostOps1]
  after_results_simp <;> rfl

/-! ## The second kernel region -/

/-- The second result is one round from the first. -/
theorem W4_v41 : W4 m ρ c (Proc.devRef .tc main_v41) = (round (round (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) := by
  refine ((W4_arr m ρ c 5).trans (final1 (V3 m ρ) c)).trans ?_
  show conv (W3 m ρ c (Proc.devRef .tc main_v39)) (W3 m ρ c (Proc.devRef .tc main_v26)) (W3 m ρ c (Proc.devRef .tc main_arg5))
    (W3 m ρ c (Proc.devRef .tc main_arg6)) (W3 m ρ c (Proc.devRef .tc main_v40)) = _
  rw [W3_v39, W3_v40, W3_v26, W3_arg5, W3_arg6, W2_v26, W2_v1, W2_v3, W2_v11, W2_arg5, W2_arg6, W2_arg7]
  rfl

/-- The first result is an input array of the second region: it keeps its contents. -/
theorem W4_v26 : W4 m ρ c (Proc.devRef .tc main_v26) = (round (m ((c : Thread nD τ).loc main_arg0)) (m ((c : Thread nD τ).loc main_arg1)) (m ((c : Thread nD τ).loc main_arg2)) (m ((c : Thread nD τ).loc main_arg3)) (m ((c : Thread nD τ).loc main_arg4))) :=
  ((W4_arr m ρ c 1).trans (((dat1 (V3 m ρ) c).arrAt_in 1 rfl _).trans (A_eq1 (V3 m ρ) c 1))).trans
    ((W3_v26 m ρ c).trans (W2_v26 m ρ c))
theorem W4_v1 : W4 m ρ c (Proc.devRef .tc main_v1) = dst (m ((c : Thread nD τ).loc main_arg1)) :=
  (W4_of_ne m ρ c main_v1 (by decide)).trans ((W3_v1 m ρ c).trans (W2_v1 m ρ c))
theorem W4_v3 : W4 m ρ c (Proc.devRef .tc main_v3) = src (m ((c : Thread nD τ).loc main_arg1)) :=
  (W4_of_ne m ρ c main_v3 (by decide)).trans ((W3_v3 m ρ c).trans (W2_v3 m ρ c))
theorem W4_v11 : W4 m ρ c (Proc.devRef .tc main_v11) = recips (dst (m ((c : Thread nD τ).loc main_arg1))) :=
  (W4_of_ne m ρ c main_v11 (by decide)).trans ((W3_v11 m ρ c).trans (W2_v11 m ρ c))
theorem W4_arg8 : W4 m ρ c (Proc.devRef .tc main_arg8) = (m ((c : Thread nD τ).loc main_arg8)) :=
  (W4_of_ne m ρ c main_arg8 (by decide)).trans ((W3_arg8 m ρ c).trans (W2_arg8 m ρ c))
theorem W4_arg9 : W4 m ρ c (Proc.devRef .tc main_arg9) = (m ((c : Thread nD τ).loc main_arg9)) :=
  (W4_of_ne m ρ c main_arg9 (by decide)).trans ((W3_arg9 m ρ c).trans (W2_arg9 m ρ c))
theorem W4_arg10 : W4 m ρ c (Proc.devRef .tc main_arg10) = (m ((c : Thread nD τ).loc main_arg10)) :=
  (W4_of_ne m ρ c main_arg10 (by decide)).trans ((W3_arg10 m ρ c).trans (W2_arg10 m ρ c))

/-! ## The third stretch of host operations -/

theorem W5_v54 : W5 m ρ c (Proc.devRef .tc main_v54) = scaled (W4 m ρ c (Proc.devRef .tc main_v41)) (W4 m ρ c (Proc.devRef .tc main_v1)) (W4 m ρ c (Proc.devRef .tc main_v3)) (W4 m ρ c (Proc.devRef .tc main_v11)) := by
  show StableHlo.after hostOps2 (W4 m ρ c) (Proc.devRef .tc main_v54) = _
  dsimp only [hostOps2]
  after_results_simp <;> rfl
theorem W5_v55 : W5 m ρ c (Proc.devRef .tc main_v55) = biasRow (W4 m ρ c (Proc.devRef .tc main_arg10)) := by
  show StableHlo.after hostOps2 (W4 m ρ c) (Proc.devRef .tc main_v55) = _
  dsimp only [hostOps2]
  after_results_simp <;> rfl
theorem W5_v41 : W5 m ρ c (Proc.devRef .tc main_v41) = W4 m ρ c (Proc.devRef .tc main_v41) := by
  show StableHlo.after hostOps2 (W4 m ρ c) (Proc.devRef .tc main_v41) = _
  dsimp only [hostOps2]
  after_results_simp <;> rfl
theorem W5_v26 : W5 m ρ c (Proc.devRef .tc main_v26) = W4 m ρ c (Proc.devRef .tc main_v26) := by
  show StableHlo.after hostOps2 (W4 m ρ c) (Proc.devRef .tc main_v26) = _
  dsimp only [hostOps2]
  after_results_simp <;> rfl
theorem W5_arg8 : W5 m ρ c (Proc.devRef .tc main_arg8) = W4 m ρ c (Proc.devRef .tc main_arg8) := by
  show StableHlo.after hostOps2 (W4 m ρ c) (Proc.devRef .tc main_arg8) = _
  dsimp only [hostOps2]
  after_results_simp <;> rfl
theorem W5_arg9 : W5 m ρ c (Proc.devRef .tc main_arg9) = W4 m ρ c (Proc.devRef .tc main_arg9) := by
  show StableHlo.after hostOps2 (W4 m ρ c) (Proc.devRef .tc main_arg9) = _
  dsimp only [hostOps2]
  after_results_simp <;> rfl

/-! ## The third kernel region: the three results at the end of the run -/

/-- The third result is one round from the second. -/
theorem W6_v56 : W6 m ρ c (Proc.devRef .tc main_v56) = (round (round (round (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10))) := by
  refine ((W6_arr m ρ c 5).trans (final2 (V5 m ρ) c)).trans ?_
  show conv (W5 m ρ c (Proc.devRef .tc main_v54)) (W5 m ρ c (Proc.devRef .tc main_v41)) (W5 m ρ c (Proc.devRef .tc main_arg8))
    (W5 m ρ c (Proc.devRef .tc main_arg9)) (W5 m ρ c (Proc.devRef .tc main_v55)) = _
  rw [W5_v54, W5_v55, W5_v41, W5_arg8, W5_arg9, W4_v41, W4_v1, W4_v3, W4_v11, W4_arg8, W4_arg9, W4_arg10]
  rfl

/-- The second result is an input array of the third region: it keeps its contents. -/
theorem W6_v41 : W6 m ρ c (Proc.devRef .tc main_v41) = (round (round (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) :=
  ((W6_arr m ρ c 1).trans (((dat2 (V5 m ρ) c).arrAt_in 1 rfl _).trans (A_eq2 (V5 m ρ) c 1))).trans
    ((W5_v41 m ρ c).trans (W4_v41 m ρ c))

/-- The first result is no array of the third region and no operation of the third stretch writes it. -/
theorem W6_v26 : W6 m ρ c (Proc.devRef .tc main_v26) = (round (m ((c : Thread nD τ).loc main_arg0)) (m ((c : Thread nD τ).loc main_arg1)) (m ((c : Thread nD τ).loc main_arg2)) (m ((c : Thread nD τ).loc main_arg3)) (m ((c : Thread nD τ).loc main_arg4))) :=
  (W6_of_ne m ρ c main_v26 (by decide)).trans ((W5_v26 m ρ c).trans (W4_v26 m ρ c))

end Cert.KernelIdeal.Hand

end
-- ==== Proof.Reference.lean ====
/-
  The reference's three results as rounds of the network, on the extended reals.

  One round, as the reference spells it: the messages are, for every node p, the sum over the edges into p of the
  features of the edge's source, DIVIDED by max (count p, 1), the clamped number of edges into p; the new features are
  the maximum with zero of (messages · Wl + bias row) + features · Wr, which is the graph-convolution layer
  max ((A·R + b) + H·Q, 0) of the messages A and the features H. The reference's run ends with its three results at
  one, two and three rounds from the input features.
-/
import proofs.«179849_j266287972767_1_alg».proof.Proof.Gen.ReferenceIdeal.Run
import proofs.«179849_j266287972767_1_alg».proof.Proof.LibGraphLayers

set_option maxRecDepth 16384

noncomputable section

namespace Cert.ReferenceIdeal.Hand

open Idealize.ShloMosaic Idealize.ShloMosaic.TcCoe Idealize.SL.Sem Idealize.ShloMosaic.ValueIdx
open Cert.ReferenceIdeal Cert.ReferenceIdeal.Gen Cert.Lib.GraphLayers Cert.Lib.RowVector

abbrev Feat := FVec Ideal S100000x128 .f32
abbrev Wts := FVec Ideal S128x128 .f32
abbrev Bias := FVec Ideal S128 .f32
abbrev Ids := IVec S1600000 32
abbrev Cnt := FVec Ideal S100000 .f32
abbrev Edges := IVec S2x1600000 32

/-- The destinations of the edges: row 0 of the edge list. -/
def dst (e : Edges) : Ids :=
  shapeCast S1600000 (extractStridedSlice S1x1600000 ![0, 0] e slices_S2x1600000_S1x1600000_0_0) shapeCasts_S1x1600000_S1600000

/-- The sources of the edges: row 1 of the edge list. -/
def src (e : Edges) : Ids :=
  shapeCast S1600000 (extractStridedSlice S1x1600000 ![1, 0] e slices_S2x1600000_S1x1600000_1_0) shapeCasts_S1x1600000_S1600000

/-- The number of edges into each node, clamped below at one. -/
def counts (d : Ids) : Cnt :=
  maximumf (Host.scatterAdd scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32))

/-- For every node, the sum over the edges into it of the features of the edge's source. -/
def sums (h : Feat) (d s : Ids) : Feat :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 h
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The messages: the sums, each row divided by its node's clamped count. -/
def mean (h : Feat) (d s : Ids) : Feat :=
  Host.divf (sums h d s) (broadcastInDim S100000x128 ![0, 1] bcast_S100000x1_S100000x128_0_1
    (broadcastInDim S100000x1 ![0] bcast_S100000_S100000x1_0 (counts d)))

/-- One round, in the reference's spelling. -/
def round (h : Feat) (e : Edges) (Wl Wr : Wts) (b : Bias) : Feat :=
  maximumf (addf (addf (Host.dotGeneral dot_S100000x128_S128x128_S100000x128_1_0_0_1_n_n none (mean h (dst e) (src e)) Wl)
        (broadcastInDim S100000x128 ![0, 1] bcast_S1x128_S100000x128_0_1 (broadcastInDim S1x128 ![1] bcast_S128_S1x128_1 b)))
      (Host.dotGeneral dot_S100000x128_S128x128_S100000x128_1_0_0_1_n_n none h Wr))
    (broadcastInDim S100000x128 ![] bcast_S_S100000x128 (constant (F := Ideal) S_ .f32 0x00000000#32))

/-- A round is the graph-convolution layer of the messages and the features, the bias vector laid as a row. -/
theorem round_eq (h : Feat) (e : Edges) (Wl Wr : Wts) (b : Bias) :
    round h e Wl Wr b = conv (mean h (dst e) (src e)) h Wl Wr (asRow b) :=
  conv_host dot_S100000x128_S128x128_S100000x128_1_0_0_1_n_n rfl rfl rfl rfl rfl rfl _ _ _ _ _ _ _ _

variable (m : (ℓ : Loc nD τ sig) → Buf (Elt Ideal) ℓ) (ρ : Dev nD → PrngReg)

/-- The reference's run: its three results at one, two and three rounds, its arguments unchanged. -/
theorem run : θ_run defs (onTc (τ := τ) (main (F := Ideal))) ⟨m, fun _ => 0, ρ⟩ fun r => ∀ c : Dev nD,
      r.2.mem ((c.tc : Thread nD τ).loc main_v29)
        = round (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v55)
        = round (round (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))
      ∧ r.2.mem ((c.tc : Thread nD τ).loc main_v81)
        = round (round (round (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg5)) (m ((c : Thread nD τ).loc main_arg6)) (m ((c : Thread nD τ).loc main_arg7))) (m ((c : Thread nD τ).loc main_arg1)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1, (h c).2.1.trans (by unfold Cert.ReferenceIdeal.Value.res_main_v55; rfl),
      (h c).2.2.1.trans (by unfold Cert.ReferenceIdeal.Value.res_main_v81; rfl), (h c).2.2.2⟩)
    (Cert.ReferenceIdeal.Value.run (F := Ideal) m ρ)

end Cert.ReferenceIdeal.Hand

end
-- ==== Proof.LibRowScale.lean ====
/-
  A per-row scale and a bias row beside a matrix: the re-shapings and broadcasts that put a vector of one value
  per row, or one value per column, beside an a×b array, read at an index — in the spelling of a kernel body
  (a column a×1 or a row 1×b broadcast to a×b) and in the host's (a vector made a column or a row by
  broadcast_in_dim or by a reshape, then broadcast_in_dim to a×b). Nothing here mentions a program.
-/
import Idealize.ShloMosaic.Lib.ValueIdx
import Idealize.ShloMosaic.Lib.Pipeline.Value

namespace Cert.Lib.RowScale

open Idealize.ShloMosaic Idealize.ShloMosaic.ValueIdx

variable {α : Type} {a b : Nat}

/-! ## The kernel body's spelling -/

/-- An a×1 column broadcast across b columns reads, at (p, q), the column's entry p. -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-! ## The host's spelling -/

/-- A vector of a entries made an a×1 column (broadcast_in_dim along axis 0) reads, at (p, 0), the vector's entry p. -/
theorem column_apply (x : (⟨1, ![a]⟩ : Shape).Idx → α) (h : (⟨1, ![a]⟩ : Shape).BroadcastsInDim ⟨2, ![a, 1]⟩ ![0])
    (p : Fin a) (z : Fin 1) : broadcastInDim ⟨2, ![a, 1]⟩ ![0] h x (ix2 p z) = x (ix1 p) :=
  broadcastInDim_apply _ h x _ _ fun ax => by
    match ax with
    | ⟨0, _⟩ =>
      show p.val = if a = 1 then 0 else p.val
      split_ifs with ha
      · have := p.isLt; omega
      · rfl

/-- A vector of a entries re-shaped to an a×1 column reads, at (p, 0), the vector's entry p. -/
theorem reshape_column_apply (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) := by
  refine shapeCast_apply x h _ _ ?_
  rw [Shape.rowMajor_val_one, Shape.rowMajor_val_two]
  show p.val = p.val * 1 + z.val
  have := z.isLt
  omega

/-- A vector of b entries made a 1×b row (broadcast_in_dim along axis 1) reads, at (0, q), the vector's entry q. -/
theorem row_apply (x : (⟨1, ![b]⟩ : Shape).Idx → α) (h : (⟨1, ![b]⟩ : Shape).BroadcastsInDim ⟨2, ![1, b]⟩ ![1])
    (z : Fin 1) (q : Fin b) : broadcastInDim ⟨2, ![1, b]⟩ ![1] h x (ix2 z q) = x (ix1 q) :=
  broadcastInDim_apply _ h x _ _ fun ax => by
    match ax with
    | ⟨0, _⟩ =>
      show q.val = if b = 1 then 0 else q.val
      split_ifs with hb
      · have := q.isLt; omega
      · rfl

/-- A vector of b entries re-shaped to a 1×b row reads, at (0, q), the vector's entry q. -/
theorem reshape_row_apply (x : (⟨1, ![b]⟩ : Shape).Idx → α) (h : (⟨1, ![b]⟩ : Shape).ShapeCasts ⟨2, ![1, b]⟩)
    (z : Fin 1) (q : Fin b) : shapeCast ⟨2, ![1, b]⟩ x h (ix2 z q) = x (ix1 q) := by
  refine shapeCast_apply x h _ _ ?_
  rw [Shape.rowMajor_val_one, Shape.rowMajor_val_two]
  show q.val = z.val * b + q.val
  have := z.isLt
  have hz : z.val = 0 := by omega
  rw [hz, Nat.zero_mul, Nat.zero_add]

/-- An a×1 column broadcast_in_dim'd to a×b (axes kept in place) reads, at (p, q), the column's entry p. -/
theorem bcast_col_apply (x : (⟨2, ![a, 1]⟩ : Shape).Idx → α) (h : (⟨2, ![a, 1]⟩ : Shape).BroadcastsInDim ⟨2, ![a, b]⟩ ![0, 1])
    (p : Fin a) (q : Fin b) : broadcastInDim ⟨2, ![a, b]⟩ ![0, 1] h x (ix2 p q) = x (ix2 p 0) :=
  broadcastInDim_apply _ h x _ _ fun ax => by
    match ax with
    | ⟨0, _⟩ =>
      show p.val = if a = 1 then 0 else p.val
      split_ifs with ha
      · have := p.isLt; omega
      · rfl
    | ⟨1, _⟩ => rfl

/-- A 1×b row broadcast_in_dim'd to a×b (axes kept in place) reads, at (p, q), the row's entry q. -/
theorem bcast_row_apply (x : (⟨2, ![1, b]⟩ : Shape).Idx → α) (h : (⟨2, ![1, b]⟩ : Shape).BroadcastsInDim ⟨2, ![a, b]⟩ ![0, 1])
    (p : Fin a) (q : Fin b) : broadcastInDim ⟨2, ![a, b]⟩ ![0, 1] h x (ix2 p q) = x (ix2 0 q) :=
  broadcastInDim_apply _ h x _ _ fun ax => by
    match ax with
    | ⟨0, _⟩ => rfl
    | ⟨1, _⟩ =>
      show q.val = if b = 1 then 0 else q.val
      split_ifs with hb
      · have := q.isLt; omega
      · rfl

end Cert.Lib.RowScale
-- ==== Proof.MeanScale.lean ====
/-
  Dividing a row by its clamped count, on the extended reals.

  A mean over incoming edges divides row p of an array S of sums by d(p) = max (count p, 1). One program forms the
  reciprocal 1 / d(p) first and multiplies every entry of the row by it; the other divides every entry by d(p).
  Because d(p) ≥ 1 it is never zero, and off zero the quotient x / y is by definition the product x · y⁻¹; the
  reciprocal is 1 · y⁻¹ = y⁻¹, so x · (1 / y) = x · y⁻¹ = x / y for EVERY extended real x and every count, infinite
  ones included: no finiteness is used. Nothing here mentions a program.
-/
import Idealize.ShloMosaic.PureOps.Ideal.Laws
import Idealize.ShloMosaic.Lib.ValueIdx
import Idealize.ShloMosaic.Lib.Pipeline.Value
import Idealize.ShloMosaic.Lib.IdealHost
import proofs.«179849_j266287972767_1_alg».proof.Proof.LibRowScale

noncomputable section

namespace Cert.MeanScale

open Idealize.ShloMosaic Idealize.ShloMosaic.ValueIdx

/-- A count clamped below at one is not zero. -/
theorem clamp_ne_zero (d : EReal) : max d 1 ≠ 0 :=
  ne_of_gt (lt_of_lt_of_le zero_lt_one (le_max_right d 1))

/-- Multiplying by the reciprocal of a clamped count is dividing by it, for every extended real. -/
theorem mul_recip_eq_div (x d : EReal) : x * Ideal.div 1 (max d 1) = Ideal.div x (max d 1) := by
  have h := clamp_ne_zero d
  unfold Ideal.div
  rw [if_neg h, if_neg h, one_mul]

variable {a b : Nat}

/-- The two spellings of the row-wise mean agree entry by entry: the sums times the broadcast reciprocals of the
    clamped counts, and the sums divided by the broadcast clamped counts. The counts are a vector of one value per
    row, made a column and then broadcast across the row; one is the word of the float one. -/
theorem mean_eq (S : FVec Ideal ⟨2, ![a, b]⟩ .f32) (d : FVec Ideal ⟨1, ![a]⟩ .f32)
    (h0 h0' h0'' : (⟨0, ![]⟩ : Shape).BroadcastsInDim ⟨1, ![a]⟩ ![])
    (h1 h1' : (⟨1, ![a]⟩ : Shape).BroadcastsInDim ⟨2, ![a, 1]⟩ ![0])
    (h2 h2' : (⟨2, ![a, 1]⟩ : Shape).BroadcastsInDim ⟨2, ![a, b]⟩ ![0, 1]) :
    mulf S (broadcastInDim ⟨2, ![a, b]⟩ ![0, 1] h2 (broadcastInDim ⟨2, ![a, 1]⟩ ![0] h1
        (Host.divf (broadcastInDim ⟨1, ![a]⟩ ![] h0 (constant (F := Ideal) ⟨0, ![]⟩ .f32 0x3F800000#32))
          (maximumf d (broadcastInDim ⟨1, ![a]⟩ ![] h0' (constant (F := Ideal) ⟨0, ![]⟩ .f32 0x3F800000#32))))))
      = Host.divf S (broadcastInDim ⟨2, ![a, b]⟩ ![0, 1] h2' (broadcastInDim ⟨2, ![a, 1]⟩ ![0] h1'
          (maximumf d (broadcastInDim ⟨1, ![a]⟩ ![] h0'' (constant (F := Ideal) ⟨0, ![]⟩ .f32 0x3F800000#32))))) := by
  funext i
  obtain ⟨p, q, rfl⟩ : ∃ (p : Fin a) (q : Fin b), i = ix2 p q := ⟨i 0, i 1, eq_ix2 i⟩
  rw [mulf_apply, hostDivf_apply, Cert.Lib.RowScale.bcast_col_apply, Cert.Lib.RowScale.bcast_col_apply,
    Cert.Lib.RowScale.column_apply, Cert.Lib.RowScale.column_apply, hostDivf_apply, maximumf_apply,
    broadcastInDim_scalar_apply, constant_apply, Ideal.ofBits_one_f32]
  exact mul_recip_eq_div _ _

end Cert.MeanScale

end
-- ==== Proof.Bridge.lean ====
/-
  One round of the program is one round of the reference, on the extended reals.

  The two differ in two places. The program multiplies each row of the edge sums by the reciprocal of its node's
  clamped count where the reference divides by the count: the count is at least one, so never zero, and off zero
  x · (1 / y) = x · y⁻¹ = x / y for every extended real x. The program adds the bias row after both matrix products
  where the reference adds it between them: (x + y) + z = (x + z) + y. Both rounds are then the same
  graph-convolution layer of the same messages and features; the bias vector re-shaped to a row is the bias vector
  broadcast into a row. No finiteness is used.
-/
import proofs.«179849_j266287972767_1_alg».proof.Proof.Stages
import proofs.«179849_j266287972767_1_alg».proof.Proof.Reference
import proofs.«179849_j266287972767_1_alg».proof.Proof.MeanScale
import proofs.«179849_j266287972767_1_alg».proof.Proof.LibRowVector

noncomputable section

namespace Cert.Proof.Bridge

open Idealize.ShloMosaic Idealize.ShloMosaic.ValueIdx Cert.Lib.GraphLayers Cert.Lib.RowVector

/-- The messages agree: times the reciprocal of the clamped count is divided by the clamped count. -/
theorem mean_eq (h : Cert.KernelIdeal.Hand.Feat) (e : Cert.KernelIdeal.Hand.Edges) :
    Cert.KernelIdeal.Hand.scaled h (Cert.KernelIdeal.Hand.dst e) (Cert.KernelIdeal.Hand.src e) (Cert.KernelIdeal.Hand.recips (Cert.KernelIdeal.Hand.dst e))
      = Cert.ReferenceIdeal.Hand.mean h (Cert.ReferenceIdeal.Hand.dst e) (Cert.ReferenceIdeal.Hand.src e) := by
  unfold Cert.KernelIdeal.Hand.scaled Cert.KernelIdeal.Hand.recips Cert.KernelIdeal.Hand.counts
  refine (Cert.MeanScale.mean_eq (a := 100000) (b := 128) (Cert.KernelIdeal.Hand.sums h (Cert.KernelIdeal.Hand.dst e) (Cert.KernelIdeal.Hand.src e)) _ _ _
    Cert.KernelIdeal.Gen.bcast_S_S100000 _ Cert.KernelIdeal.Gen.bcast_S100000_S100000x1_0 _
    Cert.KernelIdeal.Gen.bcast_S100000x1_S100000x128_0_1).trans ?_
  rfl

/-- The rounds agree. -/
theorem round_eq (h : Cert.KernelIdeal.Hand.Feat) (e : Cert.KernelIdeal.Hand.Edges) (Wl Wr : Cert.KernelIdeal.Hand.Wts) (b : Cert.KernelIdeal.Hand.Bias) :
    Cert.KernelIdeal.Hand.round h e Wl Wr b = Cert.ReferenceIdeal.Hand.round h e Wl Wr b := by
  rw [Cert.ReferenceIdeal.Hand.round_eq]
  unfold Cert.KernelIdeal.Hand.round
  rw [mean_eq h e]
  unfold Cert.KernelIdeal.Hand.biasRow
  rw [shapeCast_eq_asRow]

end Cert.Proof.Bridge

end
-- ==== Proof.lean ====
/-
  Three stacked rounds of mean aggregation over a graph's edges, each followed by a dense layer with a bias and a
  maximum with zero: the program's three results against the reference's, as extended reals.

  The program computes, once, the reciprocal of every node's clamped in-degree, and in each round gathers the features
  along the edges' sources, adds them up at the edges' destinations, scales each row by its node's reciprocal, and
  hands messages, features, the two weight matrices and the bias row to a kernel that stores
  max ((A·R + H·Q) + b, 0) block of rows by block of rows. The reference divides the sums by the clamped in-degree and
  takes max ((A·R + b) + H·Q, 0) in one piece. Round by round the two are one function (the bridge module); each
  kernel region leaves the layer of the whole arrays (the region modules); the fold of the program's buffers through
  its six segments gives the three results as one, two and three rounds from the input (the stages module). The
  ideal pass rewrote nothing, so the idealization claim is trivial. The precondition is never opened.
-/
import proofs.«179849_j266287972767_1_alg».proof.Defs
import proofs.«179849_j266287972767_1_alg».proof.Proof.Gen.Kernel
import proofs.«179849_j266287972767_1_alg».proof.Proof.Gen.Kernel.Skeleton
import proofs.«179849_j266287972767_1_alg».proof.Proof.Gen.Kernel.Launch
import proofs.«179849_j266287972767_1_alg».proof.Proof.Gen.Kernel.Points
import proofs.«179849_j266287972767_1_alg».proof.Proof.Gen.Kernel.Frame
import proofs.«179849_j266287972767_1_alg».proof.Proof.Gen.KernelIdeal
import proofs.«179849_j266287972767_1_alg».proof.Proof.Gen.KernelIdeal.Skeleton
import proofs.«179849_j266287972767_1_alg».proof.Proof.Gen.KernelIdeal.Launch
import proofs.«179849_j266287972767_1_alg».proof.Proof.Gen.KernelIdeal.Points
import proofs.«179849_j266287972767_1_alg».proof.Proof.Gen.KernelIdeal.Frame
import proofs.«179849_j266287972767_1_alg».proof.Proof.Gen.ReferenceIdeal
import proofs.«179849_j266287972767_1_alg».proof.Proof.Gen.ReferenceIdeal.Run
import proofs.«179849_j266287972767_1_alg».proof.Proof.Gen.Pre_finite_inputs
import proofs.«179849_j266287972767_1_alg».proof.Proof.KernelRun
import proofs.«179849_j266287972767_1_alg».proof.Proof.Stages
import proofs.«179849_j266287972767_1_alg».proof.Proof.Reference
import proofs.«179849_j266287972767_1_alg».proof.Proof.Bridge
import Idealize.ShloMosaic.Adequacy
import Idealize.ShloMosaic.Init

set_option maxRecDepth 16384

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2.2)
    (Cert.ReferenceIdeal.Value.run (F := Ideal) m ρ)

/-- Both programs end with one, two and three rounds from the input features in their three results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => (Cert.KernelIdeal.Hand.round (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))), fun c => (Cert.KernelIdeal.Hand.round (Cert.KernelIdeal.Hand.round (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))), fun c => (Cert.KernelIdeal.Hand.round (Cert.KernelIdeal.Hand.round (Cert.KernelIdeal.Hand.round (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg1)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))), ?_, ?_⟩
  · exact (θ_run Cert.KernelIdeal.defs _ _).mono (fun r h c =>
      ⟨(h c).1.trans (Cert.KernelIdeal.Hand.W6_v26 m ρ c), (h c).2.1.trans (Cert.KernelIdeal.Hand.W6_v41 m ρ c),
        (h c).2.2.1.trans (Cert.KernelIdeal.Hand.W6_v56 m ρ c), (h c).2.2.2⟩) (Cert.KernelIdeal.Hand.run_results m ρ)
  · refine (θ_run Cert.ReferenceIdeal.defs _ _).mono (fun r h c => ?_) (Cert.ReferenceIdeal.Hand.run m' ρ')
    obtain ⟨a0, a1, a2, a3, a4, a5, a6, a7, a8, a9, a10⟩ := hagree c
    refine ⟨(h c).1.trans ?_, (h c).2.1.trans ?_, (h c).2.2.1.trans ?_, (h c).2.2.2⟩
    · beta_reduce
      rw [a0, a1, a2, a3, a4, Bridge.round_eq]
    · beta_reduce
      rw [a0, a1, a2, a3, a4, a5, a6, a7, Bridge.round_eq, Bridge.round_eq]
    · beta_reduce
      rw [a0, a1, a2, a3, a4, a5, a6, a7, a8, a9, a10, Bridge.round_eq, Bridge.round_eq, Bridge.round_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
